-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S8x32768x256 : Shape := ⟨3, ![8, 32768, 256]⟩
abbrev S256x256 : Shape := ⟨2, ![256, 256]⟩
abbrev S256 : Shape := ⟨1, ![256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S8x32768x256 : S_.BroadcastsInDim S8x32768x256 (![] : Fin 0 → Fin S8x32768x256.rank)
  reducesTo_S8x32768x256_S_d0_1_2 : S8x32768x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S256x256 .f32) (main_arg12 : FVec F S256 .f32) (main_arg13 : FVec F S256x256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S32768x256 .f32) (main_arg1 : FVec F S32768x256 .f32) (main_arg2 : FVec F S8x32768x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S8x32768x256 .f32 := Host.absf main_arg2
  let main_cst_2 : FVec F S_ .f32 := constant S_ .f32 0x7F800000#32
  let main_v10 : FVec F S8x32768x256 .f32 := broadcastInDim S8x32768x256 ![] bcast_S_S8x32768x256 main_cst_2
  let main_v11 : IVec S8x32768x256 1 := cmpf .olt main_v9 main_v10
  let main_c_3 : IVec S_ 1 := constantI S_ 1 1#1
  let main_v12 : IVec S_ 1 := (fun x v => Host.reduce IntOp.andi x v reducesTo_S8x32768x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S32768x256 : Shape := ⟨2, ![32768, 256]⟩
abbrev S8x32768x256 : Shape := ⟨3, ![8, 32768, 256]⟩
abbrev S256x256 : Shape := ⟨2, ![256, 256]⟩
abbrev S256 : Shape := ⟨1, ![256]⟩
abbrev S256x768 : Shape := ⟨2, ![256, 768]⟩
abbrev S1x256 : Shape := ⟨2, ![1, 256]⟩
abbrev S1024x256 : Shape := ⟨2, ![1024, 256]⟩
abbrev S8x1024x256 : Shape := ⟨3, ![8, 1024, 256]⟩
abbrev S1024x768 : Shape := ⟨2, ![1024, 768]⟩
abbrev S1x1024x256 : Shape := ⟨3, ![1, 1024, 256]⟩

abbrev nBuf : Space → Nat
  | .hbm => 35
  | .vmem => 16
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S8x32768x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256x256, .bf16⟩
  | .hbm, ⟨17, _⟩ => ⟨S256x256, .f32⟩
  | .hbm, ⟨18, _⟩ => ⟨S256x256, .bf16⟩
  | .hbm, ⟨19, _⟩ => ⟨S256x256, .f32⟩
  | .hbm, ⟨20, _⟩ => ⟨S256x256, .bf16⟩
  | .hbm, ⟨21, _⟩ => ⟨S256x256, .f32⟩
  | .hbm, ⟨22, _⟩ => ⟨S256x256, .bf16⟩
  | .hbm, ⟨23, _⟩ => ⟨S256x256, .f32⟩
  | .hbm, ⟨24, _⟩ => ⟨S256x256, .bf16⟩
  | .hbm, ⟨25, _⟩ => ⟨S256x256, .f32⟩
  | .hbm, ⟨26, _⟩ => ⟨S256x256, .bf16⟩
  | .hbm, ⟨27, _⟩ => ⟨S256x768, .bf16⟩
  | .hbm, ⟨28, _⟩ => ⟨S1x256, .f32⟩
  | .hbm, ⟨29, _⟩ => ⟨S1x256, .f32⟩
  | .hbm, ⟨30, _⟩ => ⟨S256, .f32⟩
  | .hbm, ⟨31, _⟩ => ⟨S1x256, .f32⟩
  | .hbm, ⟨32, _⟩ => ⟨S256, .f32⟩
  | .hbm, ⟨33, _⟩ => ⟨S1x256, .f32⟩
  | .hbm, ⟨34, _⟩ => ⟨S32768x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S8x1024x256, .f32⟩
  | .local _ .vmem, ⟨5, _⟩ => ⟨S8x1024x256, .f32⟩
  | .local _ .vmem, ⟨6, _⟩ => ⟨S256x768, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S256x256_S256x256_1_0 : S256x256.Transposes [1, 0] S256x256
  bitsLt_bf16_f32 : FTy.bits .bf16 < FTy.bits .f32
  concatenates_S256x256_S256x256_S256x256_S256x768_d1 : Shape.Concatenates [S256x256, S256x256, S256x256] S256x768 1
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S1024x768_o0_0_S1024x256 : S1024x768.Slices ![0, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S1024x768_o0_256_S1024x256 : S1024x768.Slices ![0, 256] S1024x256
  slices_S1024x768_o0_512_S1024x256 : S1024x768.Slices ![0, 512] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8x1024x256_S1x1024x256_0_0_0 : ∀ a, (![0, 0, 0] : Fin 3 → Nat) a + S1x1024x256.size a ≤ S8x1024x256.size a
  h_S1x1024x256 : 0 < S1x1024x256.numel
  shapeCasts_S1x1024x256_S1024x256 : S1x1024x256.ShapeCasts S1024x256
  inb_S8x1024x256_S1x1024x256_1_0_0 : ∀ a, (![1, 0, 0] : Fin 3 → Nat) a + S1x1024x256.size a ≤ S8x1024x256.size a
  inb_S8x1024x256_S1x1024x256_2_0_0 : ∀ a, (![2, 0, 0] : Fin 3 → Nat) a + S1x1024x256.size a ≤ S8x1024x256.size a
  inb_S8x1024x256_S1x1024x256_3_0_0 : ∀ a, (![3, 0, 0] : Fin 3 → Nat) a + S1x1024x256.size a ≤ S8x1024x256.size a
  inb_S8x1024x256_S1x1024x256_4_0_0 : ∀ a, (![4, 0, 0] : Fin 3 → Nat) a + S1x1024x256.size a ≤ S8x1024x256.size a
  inb_S8x1024x256_S1x1024x256_5_0_0 : ∀ a, (![5, 0, 0] : Fin 3 → Nat) a + S1x1024x256.size a ≤ S8x1024x256.size a
  inb_S8x1024x256_S1x1024x256_6_0_0 : ∀ a, (![6, 0, 0] : Fin 3 → Nat) a + S1x1024x256.size a ≤ S8x1024x256.size a
  inb_S8x1024x256_S1x1024x256_7_0_0 : ∀ a, (![7, 0, 0] : Fin 3 → Nat) a + S1x1024x256.size a ≤ S8x1024x256.size a
  dot_S1024x256_S256x768_S1024x768_1_0_0_1_n_n_wf : DotDims.WF S1024x256 S256x768 S1024x768 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024x256.size a ≤ S8x32768x256.size a
  hwx0_2 : ∀ i : grid0.Coords, EltTy.bits .f32 = 32 ∨ (Rect.block (s := S8x32768x256) S8x1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S32768x256.size a
  hwx0_11 : ∀ i : grid0.Coords, EltTy.bits .f32 = 32 ∨ (Rect.block (s := S32768x256) S1024x256.size (cc0_transform_11 i) (hinb0_11 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1024x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x256 : Shape := ⟨2, ![32768, 256]⟩
abbrev S8x32768x256 : Shape := ⟨3, ![8, 32768, 256]⟩
abbrev S256x256 : Shape := ⟨2, ![256, 256]⟩
abbrev S256 : Shape := ⟨1, ![256]⟩
abbrev S1x256 : Shape := ⟨2, ![1, 256]⟩
abbrev S1x1x256 : Shape := ⟨3, ![1, 1, 256]⟩
abbrev S1x32768x256 : Shape := ⟨3, ![1, 32768, 256]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S8x32768x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S32768x256, .f32⟩
  | .hbm, ⟨17, _⟩ => ⟨S1x256, .f32⟩
  | .hbm, ⟨18, _⟩ => ⟨S32768x256, .f32⟩
  | .hbm, ⟨19, _⟩ => ⟨S32768x256, .f32⟩
  | .hbm, ⟨20, _⟩ => ⟨S8x32768x256, .f32⟩
  | .hbm, ⟨21, _⟩ => ⟨S1x1x256, .f32⟩
  | .hbm, ⟨22, _⟩ => ⟨S8x32768x256, .f32⟩
  | .hbm, ⟨23, _⟩ => ⟨S8x32768x256, .f32⟩
  | .hbm, ⟨24, _⟩ => ⟨S1x32768x256, .f32⟩
  | .hbm, ⟨25, _⟩ => ⟨S8x32768x256, .f32⟩
  | .hbm, ⟨26, _⟩ => ⟨S8x32768x256, .f32⟩
  | .hbm, ⟨27, _⟩ => ⟨S8x32768x256, .f32⟩
  | .hbm, ⟨28, _⟩ => ⟨S8x32768x256, .f32⟩
  | .hbm, ⟨29, _⟩ => ⟨S_, .f32⟩
  | .hbm, ⟨30, _⟩ => ⟨S8x32768x256, .f32⟩
  | .hbm, ⟨31, _⟩ => ⟨S8x32768x256, .f32⟩
  | .hbm, ⟨32, _⟩ => ⟨S_, .f32⟩
  | .hbm, ⟨33, _⟩ => ⟨S8x32768x256, .f32⟩
  | .hbm, ⟨34, _⟩ => ⟨S8x32768x256, .f32⟩
  | .hbm, ⟨35, _⟩ => ⟨S256x256, .f32⟩
  | .hbm, ⟨36, _⟩ => ⟨S32768x256, .f32⟩
  | .hbm, ⟨37, _⟩ => ⟨S1x256, .f32⟩
  | .hbm, ⟨38, _⟩ => ⟨S32768x256, .f32⟩
  | .hbm, ⟨39, _⟩ => ⟨S32768x256, .f32⟩
  | .hbm, ⟨40, _⟩ => ⟨S256x256, .f32⟩
  | .hbm, ⟨41, _⟩ => ⟨S32768x256, .f32⟩
  | .hbm, ⟨42, _⟩ => ⟨S32768x256, .f32⟩
  | .hbm, ⟨43, _⟩ => ⟨S1x256, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S32768x256, .f32⟩
  | .hbm, ⟨48, _⟩ => ⟨S_, .f32⟩
  | .hbm, ⟨49, _⟩ => ⟨S32768x256, .f32⟩
  | .hbm, ⟨50, _⟩ => ⟨S32768x256, .f32⟩
  | .hbm, ⟨51, _⟩ => ⟨S_, .f32⟩
  | .hbm, ⟨52, _⟩ => ⟨S32768x256, .f32⟩
  | .hbm, ⟨53, _⟩ => ⟨S32768x256, .f32⟩
  | .hbm, ⟨54, _⟩ => ⟨S8x32768x256, .f32⟩
  | .hbm, ⟨55, _⟩ => ⟨S_, .f32⟩
  | .hbm, ⟨56, _⟩ => ⟨S32768x256, .f32⟩
  | .hbm, ⟨57, _⟩ => ⟨S256x256, .f32⟩
  | .hbm, ⟨58, _⟩ => ⟨S32768x256, .f32⟩
  | .hbm, ⟨59, _⟩ => ⟨S1x256, .f32⟩
  | .hbm, ⟨60, _⟩ => ⟨S32768x256, .f32⟩
  | .hbm, ⟨61, _⟩ => ⟨S32768x256, .f32⟩
  | .hbm, ⟨62, _⟩ => ⟨S256x256, .f32⟩
  | .hbm, ⟨63, _⟩ => ⟨S32768x256, .f32⟩
  | .hbm, ⟨64, _⟩ => ⟨S32768x256, .f32⟩
  | .hbm, ⟨65, _⟩ => ⟨S1x256, .f32⟩
  | .hbm, ⟨66, _⟩ => ⟨S32768x256, .f32⟩
  | .hbm, ⟨67, _⟩ => ⟨S32768x256, .f32⟩
  | .hbm, ⟨68, _⟩ => ⟨S32768x256, .f32⟩
  | .hbm, ⟨69, _⟩ => ⟨S_, .f32⟩
  | .hbm, ⟨70, _⟩ => ⟨S32768x256, .f32⟩
  | .hbm, ⟨71, _⟩ => ⟨S32768x256, .f32⟩
  | .hbm, ⟨72, _⟩ => ⟨S32768x256, .f32⟩
  | .hbm, ⟨73, _⟩ => ⟨S32768x256, .f32⟩
  | .hbm, ⟨74, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S256_S1x1x256_2 : S256.BroadcastsInDim S1x1x256 (![2] : Fin 1 → Fin S1x1x256.rank)
  bcast_S1x1x256_S8x32768x256_0_1_2 : S1x1x256.BroadcastsInDim S8x32768x256 (![0, 1, 2] : Fin 3 → Fin S8x32768x256.rank)
  bcast_S32768x256_S1x32768x256_1_2 : S32768x256.BroadcastsInDim S1x32768x256 (![1, 2] : Fin 2 → Fin S1x32768x256.rank)
  bcast_S1x32768x256_S8x32768x256_0_1_2 : S1x32768x256.BroadcastsInDim S8x32768x256 (![0, 1, 2] : Fin 3 → Fin S8x32768x256.rank)
  bcast_S_S8x32768x256 : S_.BroadcastsInDim S8x32768x256 (![] : Fin 0 → Fin S8x32768x256.rank)
  bcast_S_S32768x256 : S_.BroadcastsInDim S32768x256 (![] : Fin 0 → Fin S32768x256.rank)
  reducesTo_S8x32768x256_S32768x256_d0 : S8x32768x256.ReducesTo [0] S32768x256
  h_S_ : 0 < S_.numel
  dot_S32768x256_S256x256_S32768x256_1_0_0_1_n_n_wf : DotDims.WF S32768x256 S256x256 S32768x256 [1] [0] [0] [1] [] []
  dot_S8x32768x256_S256x256_S8x32768x256_2_1_01_0_n_n_wf : DotDims.WF S8x32768x256 S256x256 S8x32768x256 [2] [1] [0, 1] [0] [] []

variable [Facts₀]

def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S8x32768x256_S256x256_S8x32768x256_2_1_01_0_n_n : DotDims S8x32768x256 S256x256 S8x32768x256 where
  lhsContracting := [2]
  rhsContracting := [1]
  lhsNonContracting := [0, 1]
  rhsNonContracting := [0]
  lhsBatch := []
  rhsBatch := []
  wf := dot_S8x32768x256_S256x256_S8x32768x256_2_1_01_0_n_n_wf

class Facts : Prop extends Facts₀ where

variable [Facts]
-- ==== Proof.BitsEntry.lean ====
/-
  The buffers as the launch finds them: before the one launch, nineteen host operations transpose each of the six
  weights and narrow it, join three of the transposed weights along the columns into one 256 × 768 matrix, reshape
  two biases to rows, and add the two remaining pairs of biases and reshape the sums to rows. `V m c b` is buffer
  `b`'s contents on core `c` after those operations, from the memory `m` the program starts in.
-/
import proofs.«177820_j4724464025751_2_alg».proof.Proof.Gen.Kernel.Launch
import Idealize.ShloMosaic.Lib.StableHlo.Run

noncomputable section

namespace Cert.Kernel.Region

open Idealize.ShloMosaic Idealize.ShloMosaic.TcCoe Idealize.SL.Sem Cert.Kernel Cert.Kernel.Gen

variable {F : FTy → Type} [FloatOps F]

/-- Core `c`'s buffer `b` when the launch is entered: after the host operations, folded over the start memory. -/
abbrev V (m : (ℓ : Loc nD τ sig) → Buf (Elt F) ℓ) (c : Dev nD) (b : Ref sig .tc) : Buf (Elt F) ((c : Thread nD τ).loc b) :=
  StableHlo.after hostOps0 (fun b => m (c, b)) b

end Cert.Kernel.Region

end
-- ==== Proof.BitsStored.lean ====
/-
  What one launch of the cell's body stores into its output block, as ONE function of the eleven blocks it loads.

  The body loads the input rows `x0` (1024 × 256) and the summed-state rows `x1`, the eight neighbour slabs of `x2`
  (8 × 1024 × 256, read one slab at a time), the fused input weight `x3` (256 × 768: three 256-column bands), the three
  state weights `x4`, `x5`, `x6` and the four bias rows `x7` … `x10` (1 × 256), and stores one whole 1024 × 256 block.
  The pure arithmetic between the loads and the store is the generated skeleton's payload terms; here they are only
  composed, in the order the body computes them.
-/
import proofs.«177820_j4724464025751_2_alg».proof.Proof.Gen.Kernel.Skeleton
import Idealize.ShloMosaic.Lib.Pipeline.FrameBody

noncomputable section

namespace Cert.Kernel.Body

open Idealize.ShloMosaic Idealize.SL.Sem Cert.Kernel Cert.Kernel.Gen

variable {F : FTy → Type} [FloatOps F]

/-- The whole 1024 × 256 block: every row block and the output block are read or written through it. -/
abbrev rRows : Rect S1024x256 := Rect.unit (s := S1024x256) ![0, 0] S1024x256.size inb_S1024x256_S1024x256_0_0
/-- The whole fused input weight. -/
abbrev rFused : Rect S256x768 := Rect.unit (s := S256x768) ![0, 0] S256x768.size inb_S256x768_S256x768_0_0
/-- A whole state weight. -/
abbrev rSq : Rect S256x256 := Rect.unit (s := S256x256) ![0, 0] S256x256.size inb_S256x256_S256x256_0_0
/-- A whole bias row. -/
abbrev rRow : Rect S1x256 := Rect.unit (s := S1x256) ![0, 0] S1x256.size inb_S1x256_S1x256_0_0
/-- Neighbour slab `n` of the 8 × 1024 × 256 block: rows and columns whole, the leading coordinate fixed. -/
abbrev rSlab0 : Rect S8x1024x256 := Rect.unit (s := S8x1024x256) ![0, 0, 0] S1x1024x256.size inb_S8x1024x256_S1x1024x256_0_0_0
abbrev rSlab1 : Rect S8x1024x256 := Rect.unit (s := S8x1024x256) ![1, 0, 0] S1x1024x256.size inb_S8x1024x256_S1x1024x256_1_0_0
abbrev rSlab2 : Rect S8x1024x256 := Rect.unit (s := S8x1024x256) ![2, 0, 0] S1x1024x256.size inb_S8x1024x256_S1x1024x256_2_0_0
abbrev rSlab3 : Rect S8x1024x256 := Rect.unit (s := S8x1024x256) ![3, 0, 0] S1x1024x256.size inb_S8x1024x256_S1x1024x256_3_0_0
abbrev rSlab4 : Rect S8x1024x256 := Rect.unit (s := S8x1024x256) ![4, 0, 0] S1x1024x256.size inb_S8x1024x256_S1x1024x256_4_0_0
abbrev rSlab5 : Rect S8x1024x256 := Rect.unit (s := S8x1024x256) ![5, 0, 0] S1x1024x256.size inb_S8x1024x256_S1x1024x256_5_0_0
abbrev rSlab6 : Rect S8x1024x256 := Rect.unit (s := S8x1024x256) ![6, 0, 0] S1x1024x256.size inb_S8x1024x256_S1x1024x256_6_0_0
abbrev rSlab7 : Rect S8x1024x256 := Rect.unit (s := S8x1024x256) ![7, 0, 0] S1x1024x256.size inb_S8x1024x256_S1x1024x256_7_0_0

/-- The input's projection onto the reset gate's columns plus its bias: shared by all eight neighbours. -/
def inReset (x0 : Vec F S1024x256 .f32) (x3 : Vec F S256x768 .bf16) (x7 : Vec F S1x256 .f32) : FVec F S1024x256 .f32 :=
  k0_pay4 (View.ld x0 rRows) (View.ld x3 rFused) (View.ld x7 rRow)

/-- The gated sum after neighbours 0 … 4, as the body accumulates it. -/
def acc5 (x0 : Vec F S1024x256 .f32) (x2 : Vec F S8x1024x256 .f32) (x3 : Vec F S256x768 .bf16) (x4 : Vec F S256x256 .bf16)
    (x7 x8 : Vec F S1x256 .f32) : FVec F S1024x256 .f32 :=
  k0_pay12 (inReset x0 x3 x7) (k0_pay7 (View.ld x4 rSq)) (k0_pay8 (View.ld x8 rRow))
    (k0_pay9 (View.ld x0 rRows) (View.ld x3 rFused) (View.ld x7 rRow) (View.ld x4 rSq) (View.ld x8 rRow) (View.ld x2 rSlab0))
    (k0_pay10 (View.ld x2 rSlab1)) (k0_pay11 (View.ld x4 rSq) (View.ld x8 rRow) (View.ld x2 rSlab1))
    (View.ld x2 rSlab2) (View.ld x2 rSlab3) (View.ld x2 rSlab4)

/-- The update gate. -/
def gate (x0 x1 : Vec F S1024x256 .f32) (x3 : Vec F S256x768 .bf16) (x5 : Vec F S256x256 .bf16) (x9 : Vec F S1x256 .f32) :
    FVec F S1024x256 .f32 :=
  k0_pay15 (k0_pay2 (View.ld x1 rRows)) (k0_pay5 (View.ld x0 rRows) (View.ld x3 rFused)) (View.ld x5 rSq) (View.ld x9 rRow)

/-- The candidate's argument before its bias: the input's third band plus the gated sum's projection. -/
def preCand (x0 : Vec F S1024x256 .f32) (x2 : Vec F S8x1024x256 .f32) (x3 : Vec F S256x768 .bf16) (x4 x6 : Vec F S256x256 .bf16)
    (x7 x8 : Vec F S1x256 .f32) : FVec F S1024x256 .f32 :=
  k0_pay16 (inReset x0 x3 x7) (k0_pay6 (View.ld x0 rRows) (View.ld x3 rFused)) (k0_pay7 (View.ld x4 rSq)) (k0_pay8 (View.ld x8 rRow))
    (acc5 x0 x2 x3 x4 x7 x8) (k0_pay13 (View.ld x2 rSlab5))
    (k0_pay14 (k0_pay7 (View.ld x4 rSq)) (k0_pay8 (View.ld x8 rRow)) (View.ld x2 rSlab5))
    (View.ld x2 rSlab6) (View.ld x2 rSlab7) (View.ld x6 rSq)

/-- The stored block. -/
def stored (x0 x1 : Vec F S1024x256 .f32) (x2 : Vec F S8x1024x256 .f32) (x3 : Vec F S256x768 .bf16)
    (x4 x5 x6 : Vec F S256x256 .bf16) (x7 x8 x9 x10 : Vec F S1x256 .f32) : FVec F S1024x256 .f32 :=
  k0_pay1 (View.ld x1 rRows) (gate x0 x1 x3 x5 x9) (preCand x0 x2 x3 x4 x6 x7 x8) (View.ld x10 rRow)

end Cert.Kernel.Body

end
-- ==== Proof.BitsFrame.lean ====
/-
  The launch of the cell's body over its 32 row blocks runs to the end, faults nowhere and leaves every argument
  array as it was; and after it the result array is, block by block, what the body stores.

  The program is nineteen host operations and then one launch over a grid of 32 points. At point `t` the body is handed
  rows 1024·t … 1024·t + 1023 of the input and of the summed state, the same rows of each of the eight neighbour
  slabs, and — the same at every point, fetched once — the fused input weight, the three state weights and the four
  bias rows; it stores one whole 1024 × 256 block of the result, which is written back at every point.
  The body's run is symbolic: it loads through literal rectangles, computes, and stores once through the whole
  rectangle, so what the output buffer holds afterwards is the one stored value (`Body.stored`) of the blocks loaded.
  Everything here holds at any float instance `F`.
-/
import proofs.«177820_j4724464025751_2_alg».proof.Proof.Gen.Kernel.Launch
import proofs.«177820_j4724464025751_2_alg».proof.Proof.Gen.Kernel.Skeleton
import proofs.«177820_j4724464025751_2_alg».proof.Proof.Gen.Kernel.Points
import proofs.«177820_j4724464025751_2_alg».proof.Proof.BitsEntry
import proofs.«177820_j4724464025751_2_alg».proof.Proof.BitsStored
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- The host operations allocate nothing. -/
theorem hostOps0_fresh : (hostOps0 : List (HloOp τ sig (Elt F))).Forall fun op => op.fresh = ∅ := by
  simp only [List.Forall]; repeat' constructor

/-- The program is its host operations and then the launch, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0`: the launch finds it as the program started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg1`: the launch finds it as the program started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg2`: the launch finds it as the program started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg3`: the launch finds it as the program started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg4`: the launch finds it as the program started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg5`: the launch finds it as the program started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg6`: the launch finds it as the program started with it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg7`: the launch finds it as the program started with it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg8`: the launch finds it as the program started with it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg9`: the launch finds it as the program started with it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg10`: the launch finds it as the program started with it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg11`: the launch finds it as the program started with it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg12`: the launch finds it as the program started with it. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg13`: the launch finds it as the program started with it. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg14`: the launch finds it as the program started with it. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The blocks the body is handed -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, whether the block was fetched there or — the block index
    not having moved — is still the one fetched earlier; for any proof data whose arrays are `V`'s and whose body leaves
    the inputs' buffers as it found them. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with every array the launch stages at what the proof data computes and every other buffer as
    the launch found it: the three staged arguments are inputs, never written back, and the other twelve are not staged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## What the body leaves in the output buffer -/

/-- The output buffer after the body: its one store, through the whole rectangle, of the value computed from the blocks. -/
def out0_11 (x0 : Vec F S1024x256 .f32) (x1 : Vec F S1024x256 .f32) (x2 : Vec F S8x1024x256 .f32) (x3 : Vec F S256x768 .bf16) (x4 : Vec F S256x256 .bf16) (x5 : Vec F S256x256 .bf16) (x6 : Vec F S256x256 .bf16) (x7 : Vec F S1x256 .f32) (x8 : Vec F S1x256 .f32) (x9 : Vec F S1x256 .f32) (x10 : Vec F S1x256 .f32) : Vec F S1024x256 .f32 :=
  View.canon [⟨rRows, stored x0 x1 x2 x3 x4 x5 x6 x7 x8 x9 x10⟩]

/-- The one store covers the buffer. -/
theorem cover0_11 (p0 : Vec F S1024x256 .f32) (y : S1024x256.Idx) :
    ∃ pc ∈ ([⟨rRows, p0⟩] : List (View.Piece (Elt F) S1024x256 .f32)), y ∈ pc.1.set :=
  View.cover_of_tiled [⟨rRows, p0⟩] S1024x256.size (by rfl) y

/-! ## The body's run -/

set_option maxHeartbeats 4000000 in
/-- On whole buffers, the inputs' holding `x0` … `x10` and the output's anything, the body runs to its end with the
    inputs' buffers as they were and the output's at `out0_11` of them. -/
theorem sound_kernel (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S8x1024x256 .f32) (harg3 : arg3.IsWhole) (arg4 : Memref sig .tc .vmem S256x768 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole)
    (x0 : Vec F S1024x256 .f32) (x1 : Vec F S1024x256 .f32) (x2 : Vec F S8x1024x256 .f32) (x3 : Vec F S256x768 .bf16) (x4 : Vec F S256x256 .bf16) (x5 : Vec F S256x256 .bf16) (x6 : Vec F S256x256 .bf16) (x7 : Vec F S1x256 .f32) (x8 : Vec F S1x256 .f32) (x9 : Vec F S1x256 .f32) (x10 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12) K := by
  simp only [cc0__gru_kernel_eq_skeleton]; unfold cc0__gru_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## The proof data -/

/-- The arrays as the launch finds them; after the body at point `t` each input's buffer at its block and the output's at
    the stored value of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- At any point the inputs' buffers hold their blocks, so the body's run applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, with every staged array at what the proof data computes and every
    other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Region

end
-- ==== Proof.IdealEntry.lean ====
/-
  The buffers as the launch finds them: before the one launch, nineteen host operations transpose each of the six
  weights and narrow it, join three of the transposed weights along the columns into one 256 × 768 matrix, reshape
  two biases to rows, and add the two remaining pairs of biases and reshape the sums to rows. `V m c b` is buffer
  `b`'s contents on core `c` after those operations, from the memory `m` the program starts in.
-/
import proofs.«177820_j4724464025751_2_alg».proof.Proof.Gen.KernelIdeal.Launch
import Idealize.ShloMosaic.Lib.StableHlo.Run

noncomputable section

namespace Cert.KernelIdeal.Region

open Idealize.ShloMosaic Idealize.ShloMosaic.TcCoe Idealize.SL.Sem Cert.KernelIdeal Cert.KernelIdeal.Gen

variable {F : FTy → Type} [FloatOps F]

/-- Core `c`'s buffer `b` when the launch is entered: after the host operations, folded over the start memory. -/
abbrev V (m : (ℓ : Loc nD τ sig) → Buf (Elt F) ℓ) (c : Dev nD) (b : Ref sig .tc) : Buf (Elt F) ((c : Thread nD τ).loc b) :=
  StableHlo.after hostOps0 (fun b => m (c, b)) b

end Cert.KernelIdeal.Region

end
-- ==== Proof.IdealStored.lean ====
/-
  What one launch of the cell's body stores into its output block, as ONE function of the eleven blocks it loads.

  The body loads the input rows `x0` (1024 × 256) and the summed-state rows `x1`, the eight neighbour slabs of `x2`
  (8 × 1024 × 256, read one slab at a time), the fused input weight `x3` (256 × 768: three 256-column bands), the three
  state weights `x4`, `x5`, `x6` and the four bias rows `x7` … `x10` (1 × 256), and stores one whole 1024 × 256 block.
  The pure arithmetic between the loads and the store is the generated skeleton's payload terms; here they are only
  composed, in the order the body computes them.
-/
import proofs.«177820_j4724464025751_2_alg».proof.Proof.Gen.KernelIdeal.Skeleton
import Idealize.ShloMosaic.Lib.Pipeline.FrameBody

noncomputable section

namespace Cert.KernelIdeal.Body

open Idealize.ShloMosaic Idealize.SL.Sem Cert.KernelIdeal Cert.KernelIdeal.Gen

variable {F : FTy → Type} [FloatOps F]

/-- The whole 1024 × 256 block: every row block and the output block are read or written through it. -/
abbrev rRows : Rect S1024x256 := Rect.unit (s := S1024x256) ![0, 0] S1024x256.size inb_S1024x256_S1024x256_0_0
/-- The whole fused input weight. -/
abbrev rFused : Rect S256x768 := Rect.unit (s := S256x768) ![0, 0] S256x768.size inb_S256x768_S256x768_0_0
/-- A whole state weight. -/
abbrev rSq : Rect S256x256 := Rect.unit (s := S256x256) ![0, 0] S256x256.size inb_S256x256_S256x256_0_0
/-- A whole bias row. -/
abbrev rRow : Rect S1x256 := Rect.unit (s := S1x256) ![0, 0] S1x256.size inb_S1x256_S1x256_0_0
/-- Neighbour slab `n` of the 8 × 1024 × 256 block: rows and columns whole, the leading coordinate fixed. -/
abbrev rSlab0 : Rect S8x1024x256 := Rect.unit (s := S8x1024x256) ![0, 0, 0] S1x1024x256.size inb_S8x1024x256_S1x1024x256_0_0_0
abbrev rSlab1 : Rect S8x1024x256 := Rect.unit (s := S8x1024x256) ![1, 0, 0] S1x1024x256.size inb_S8x1024x256_S1x1024x256_1_0_0
abbrev rSlab2 : Rect S8x1024x256 := Rect.unit (s := S8x1024x256) ![2, 0, 0] S1x1024x256.size inb_S8x1024x256_S1x1024x256_2_0_0
abbrev rSlab3 : Rect S8x1024x256 := Rect.unit (s := S8x1024x256) ![3, 0, 0] S1x1024x256.size inb_S8x1024x256_S1x1024x256_3_0_0
abbrev rSlab4 : Rect S8x1024x256 := Rect.unit (s := S8x1024x256) ![4, 0, 0] S1x1024x256.size inb_S8x1024x256_S1x1024x256_4_0_0
abbrev rSlab5 : Rect S8x1024x256 := Rect.unit (s := S8x1024x256) ![5, 0, 0] S1x1024x256.size inb_S8x1024x256_S1x1024x256_5_0_0
abbrev rSlab6 : Rect S8x1024x256 := Rect.unit (s := S8x1024x256) ![6, 0, 0] S1x1024x256.size inb_S8x1024x256_S1x1024x256_6_0_0
abbrev rSlab7 : Rect S8x1024x256 := Rect.unit (s := S8x1024x256) ![7, 0, 0] S1x1024x256.size inb_S8x1024x256_S1x1024x256_7_0_0

/-- The input's projection onto the reset gate's columns plus its bias: shared by all eight neighbours. -/
def inReset (x0 : Vec F S1024x256 .f32) (x3 : Vec F S256x768 .bf16) (x7 : Vec F S1x256 .f32) : FVec F S1024x256 .f32 :=
  k0_pay4 (View.ld x0 rRows) (View.ld x3 rFused) (View.ld x7 rRow)

/-- The gated sum after neighbours 0 … 4, as the body accumulates it. -/
def acc5 (x0 : Vec F S1024x256 .f32) (x2 : Vec F S8x1024x256 .f32) (x3 : Vec F S256x768 .bf16) (x4 : Vec F S256x256 .bf16)
    (x7 x8 : Vec F S1x256 .f32) : FVec F S1024x256 .f32 :=
  k0_pay12 (inReset x0 x3 x7) (k0_pay7 (View.ld x4 rSq)) (k0_pay8 (View.ld x8 rRow))
    (k0_pay9 (View.ld x0 rRows) (View.ld x3 rFused) (View.ld x7 rRow) (View.ld x4 rSq) (View.ld x8 rRow) (View.ld x2 rSlab0))
    (k0_pay10 (View.ld x2 rSlab1)) (k0_pay11 (View.ld x4 rSq) (View.ld x8 rRow) (View.ld x2 rSlab1))
    (View.ld x2 rSlab2) (View.ld x2 rSlab3) (View.ld x2 rSlab4)

/-- The update gate. -/
def gate (x0 x1 : Vec F S1024x256 .f32) (x3 : Vec F S256x768 .bf16) (x5 : Vec F S256x256 .bf16) (x9 : Vec F S1x256 .f32) :
    FVec F S1024x256 .f32 :=
  k0_pay15 (k0_pay2 (View.ld x1 rRows)) (k0_pay5 (View.ld x0 rRows) (View.ld x3 rFused)) (View.ld x5 rSq) (View.ld x9 rRow)

/-- The candidate's argument before its bias: the input's third band plus the gated sum's projection. -/
def preCand (x0 : Vec F S1024x256 .f32) (x2 : Vec F S8x1024x256 .f32) (x3 : Vec F S256x768 .bf16) (x4 x6 : Vec F S256x256 .bf16)
    (x7 x8 : Vec F S1x256 .f32) : FVec F S1024x256 .f32 :=
  k0_pay16 (inReset x0 x3 x7) (k0_pay6 (View.ld x0 rRows) (View.ld x3 rFused)) (k0_pay7 (View.ld x4 rSq)) (k0_pay8 (View.ld x8 rRow))
    (acc5 x0 x2 x3 x4 x7 x8) (k0_pay13 (View.ld x2 rSlab5))
    (k0_pay14 (k0_pay7 (View.ld x4 rSq)) (k0_pay8 (View.ld x8 rRow)) (View.ld x2 rSlab5))
    (View.ld x2 rSlab6) (View.ld x2 rSlab7) (View.ld x6 rSq)

/-- The stored block. -/
def stored (x0 x1 : Vec F S1024x256 .f32) (x2 : Vec F S8x1024x256 .f32) (x3 : Vec F S256x768 .bf16)
    (x4 x5 x6 : Vec F S256x256 .bf16) (x7 x8 x9 x10 : Vec F S1x256 .f32) : FVec F S1024x256 .f32 :=
  k0_pay1 (View.ld x1 rRows) (gate x0 x1 x3 x5 x9) (preCand x0 x2 x3 x4 x6 x7 x8) (View.ld x10 rRow)

end Cert.KernelIdeal.Body

end
-- ==== Proof.IdealFrame.lean ====
/-
  The launch of the cell's body over its 32 row blocks runs to the end, faults nowhere and leaves every argument
  array as it was; and after it the result array is, block by block, what the body stores.

  The program is nineteen host operations and then one launch over a grid of 32 points. At point `t` the body is handed
  rows 1024·t … 1024·t + 1023 of the input and of the summed state, the same rows of each of the eight neighbour
  slabs, and — the same at every point, fetched once — the fused input weight, the three state weights and the four
  bias rows; it stores one whole 1024 × 256 block of the result, which is written back at every point.
  The body's run is symbolic: it loads through literal rectangles, computes, and stores once through the whole
  rectangle, so what the output buffer holds afterwards is the one stored value (`Body.stored`) of the blocks loaded.
  Everything here holds at any float instance `F`.
-/
import proofs.«177820_j4724464025751_2_alg».proof.Proof.Gen.KernelIdeal.Launch
import proofs.«177820_j4724464025751_2_alg».proof.Proof.Gen.KernelIdeal.Skeleton
import proofs.«177820_j4724464025751_2_alg».proof.Proof.Gen.KernelIdeal.Points
import proofs.«177820_j4724464025751_2_alg».proof.Proof.IdealEntry
import proofs.«177820_j4724464025751_2_alg».proof.Proof.IdealStored
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- The host operations allocate nothing. -/
theorem hostOps0_fresh : (hostOps0 : List (HloOp τ sig (Elt F))).Forall fun op => op.fresh = ∅ := by
  simp only [List.Forall]; repeat' constructor

/-- The program is its host operations and then the launch, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0`: the launch finds it as the program started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg1`: the launch finds it as the program started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg2`: the launch finds it as the program started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg3`: the launch finds it as the program started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg4`: the launch finds it as the program started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg5`: the launch finds it as the program started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg6`: the launch finds it as the program started with it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg7`: the launch finds it as the program started with it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg8`: the launch finds it as the program started with it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg9`: the launch finds it as the program started with it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg10`: the launch finds it as the program started with it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg11`: the launch finds it as the program started with it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg12`: the launch finds it as the program started with it. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg13`: the launch finds it as the program started with it. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg14`: the launch finds it as the program started with it. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The blocks the body is handed -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, whether the block was fetched there or — the block index
    not having moved — is still the one fetched earlier; for any proof data whose arrays are `V`'s and whose body leaves
    the inputs' buffers as it found them. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with every array the launch stages at what the proof data computes and every other buffer as
    the launch found it: the three staged arguments are inputs, never written back, and the other twelve are not staged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## What the body leaves in the output buffer -/

/-- The output buffer after the body: its one store, through the whole rectangle, of the value computed from the blocks. -/
def out0_11 (x0 : Vec F S1024x256 .f32) (x1 : Vec F S1024x256 .f32) (x2 : Vec F S8x1024x256 .f32) (x3 : Vec F S256x768 .bf16) (x4 : Vec F S256x256 .bf16) (x5 : Vec F S256x256 .bf16) (x6 : Vec F S256x256 .bf16) (x7 : Vec F S1x256 .f32) (x8 : Vec F S1x256 .f32) (x9 : Vec F S1x256 .f32) (x10 : Vec F S1x256 .f32) : Vec F S1024x256 .f32 :=
  View.canon [⟨rRows, stored x0 x1 x2 x3 x4 x5 x6 x7 x8 x9 x10⟩]

/-- The one store covers the buffer. -/
theorem cover0_11 (p0 : Vec F S1024x256 .f32) (y : S1024x256.Idx) :
    ∃ pc ∈ ([⟨rRows, p0⟩] : List (View.Piece (Elt F) S1024x256 .f32)), y ∈ pc.1.set :=
  View.cover_of_tiled [⟨rRows, p0⟩] S1024x256.size (by rfl) y

/-! ## The body's run -/

set_option maxHeartbeats 4000000 in
/-- On whole buffers, the inputs' holding `x0` … `x10` and the output's anything, the body runs to its end with the
    inputs' buffers as they were and the output's at `out0_11` of them. -/
theorem sound_kernel (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S8x1024x256 .f32) (harg3 : arg3.IsWhole) (arg4 : Memref sig .tc .vmem S256x768 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole)
    (x0 : Vec F S1024x256 .f32) (x1 : Vec F S1024x256 .f32) (x2 : Vec F S8x1024x256 .f32) (x3 : Vec F S256x768 .bf16) (x4 : Vec F S256x256 .bf16) (x5 : Vec F S256x256 .bf16) (x6 : Vec F S256x256 .bf16) (x7 : Vec F S1x256 .f32) (x8 : Vec F S1x256 .f32) (x9 : Vec F S1x256 .f32) (x10 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12) K := by
  simp only [cc0__gru_kernel_eq_skeleton]; unfold cc0__gru_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## The proof data -/

/-- The arrays as the launch finds them; after the body at point `t` each input's buffer at its block and the output's at
    the stored value of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- At any point the inputs' buffers hold their blocks, so the body's run applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, with every staged array at what the proof data computes and every
    other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Region

end
-- ==== Proof.IdealBlocks.lean ====
/-
  Where each block sits in its array, and that the output's blocks fill the result array.

  The grid has 32 points. At point `t` the input, the summed state and the output are handed rows 1024·t … 1024·t + 1023
  (all 256 columns); the neighbour array the same rows of each of its eight slabs; the weights and the bias rows are
  handed whole at every point. So an entry `(p, k)` of a row block is entry `(1024·t + p, k)` of its array, and every row
  `r` of the result array lies in the output block of point `r / 1024`.
-/
import proofs.«177820_j4724464025751_2_alg».proof.Proof.IdealFrame
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.KernelIdeal.Region Cert.KernelIdeal.Body
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The block index of each moving window at point `t`: the point itself on the row axis, zero elsewhere. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0
    ∧ win0_11.index t (0 : Fin 2) = t.val ∧ win0_11.index t (1 : Fin 2) = 0 :=
  (by decide +kernel : ∀ t : Fin grid0.N, _)

/-- The block index of each window handed whole: zero on both axes at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

theorem point_lt (t : Fin cfg0.N) : t.val < 32 := lt_of_lt_of_eq t.isLt N_0

/-- Row `p` of the block at point `t` is row `1024·t + p` of the array. -/
def row (t : Fin cfg0.N) (p : Fin 1024) : Fin 32768 :=
  ⟨1024 * t.val + p.val, by have := point_lt t; have := p.isLt; omega⟩

/-- An entry of the input block. -/
theorem blk0_apply (c : Dev nD) (t : Fin cfg0.N) (p : Fin 1024) (k : Fin 256) :
    iblk m c 0 t (ix2 p k) = m ((c : Thread nD τ).loc main_arg0) (ix2 (row t p) k) := by
  obtain ⟨e0, e1, -⟩ := idx_rows t
  have h : ((cfg0.win 0).blk t).view.emb (ix2 p k : S1024x256.Idx) = (ix2 (row t p) k : S32768x256.Idx) := by
    funext a; apply Fin.ext
    match a with
    | ⟨0, _⟩ => show win0_0.index t (0 : Fin 2) * 1024 + 1 * p.val = 1024 * t.val + p.val; omega
    | ⟨1, _⟩ => show win0_0.index t (1 : Fin 2) * 256 + 1 * k.val = k.val; omega
  show V m c main_arg0 (((cfg0.win 0).blk t).view.emb (ix2 p k : S1024x256.Idx)) = _
  rw [h, V_main_arg0]

/-- An entry of the summed-state block. -/
theorem blk1_apply (c : Dev nD) (t : Fin cfg0.N) (p : Fin 1024) (k : Fin 256) :
    iblk m c 1 t (ix2 p k) = m ((c : Thread nD τ).loc main_arg1) (ix2 (row t p) k) := by
  obtain ⟨-, -, e0, e1, -⟩ := idx_rows t
  have h : ((cfg0.win 1).blk t).view.emb (ix2 p k : S1024x256.Idx) = (ix2 (row t p) k : S32768x256.Idx) := by
    funext a; apply Fin.ext
    match a with
    | ⟨0, _⟩ => show win0_1.index t (0 : Fin 2) * 1024 + 1 * p.val = 1024 * t.val + p.val; omega
    | ⟨1, _⟩ => show win0_1.index t (1 : Fin 2) * 256 + 1 * k.val = k.val; omega
  show V m c main_arg1 (((cfg0.win 1).blk t).view.emb (ix2 p k : S1024x256.Idx)) = _
  rw [h, V_main_arg1]

/-- An entry of the neighbour block: slab `n`, the same rows. -/
theorem blk2_apply (c : Dev nD) (t : Fin cfg0.N) (n : Fin 8) (p : Fin 1024) (k : Fin 256) :
    iblk m c 2 t (ix3 n p k) = m ((c : Thread nD τ).loc main_arg2) (ix3 n (row t p) k) := by
  obtain ⟨-, -, -, -, e0, e1, e2, -⟩ := idx_rows t
  have h : ((cfg0.win 2).blk t).view.emb (ix3 n p k : S8x1024x256.Idx) = (ix3 n (row t p) k : S8x32768x256.Idx) := by
    funext a; apply Fin.ext
    match a with
    | ⟨0, _⟩ => show win0_2.index t (0 : Fin 3) * 8 + 1 * n.val = n.val; omega
    | ⟨1, _⟩ => show win0_2.index t (1 : Fin 3) * 1024 + 1 * p.val = 1024 * t.val + p.val; omega
    | ⟨2, _⟩ => show win0_2.index t (2 : Fin 3) * 256 + 1 * k.val = k.val; omega
  show V m c main_arg2 (((cfg0.win 2).blk t).view.emb (ix3 n p k : S8x1024x256.Idx)) = _
  rw [h, V_main_arg2]

/-- A window handed whole: its block is the array as the launch finds it. -/
theorem blk3_apply (c : Dev nD) (t : Fin cfg0.N) (a : Fin 256) (b : Fin 768) :
    iblk m c 3 t (ix2 a b) = V m c main_v12 (ix2 a b) := by
  obtain ⟨e0, e1, -⟩ := idx_whole t
  have h : ((cfg0.win 3).blk t).view.emb (ix2 a b : S256x768.Idx) = (ix2 a b : S256x768.Idx) := by
    funext d; apply Fin.ext
    match d with
    | ⟨0, _⟩ => show win0_3.index t (0 : Fin 2) * 256 + 1 * a.val = a.val; omega
    | ⟨1, _⟩ => show win0_3.index t (1 : Fin 2) * 768 + 1 * b.val = b.val; omega
  show V m c main_v12 (((cfg0.win 3).blk t).view.emb (ix2 a b : S256x768.Idx)) = _
  rw [h]

/-- A window handed whole: its block is the array as the launch finds it. -/
theorem blk4_apply (c : Dev nD) (t : Fin cfg0.N) (a : Fin 256) (b : Fin 256) :
    iblk m c 4 t (ix2 a b) = V m c main_v3 (ix2 a b) := by
  obtain ⟨-, -, e0, e1, -⟩ := idx_whole t
  have h : ((cfg0.win 4).blk t).view.emb (ix2 a b : S256x256.Idx) = (ix2 a b : S256x256.Idx) := by
    funext d; apply Fin.ext
    match d with
    | ⟨0, _⟩ => show win0_4.index t (0 : Fin 2) * 256 + 1 * a.val = a.val; omega
    | ⟨1, _⟩ => show win0_4.index t (1 : Fin 2) * 256 + 1 * b.val = b.val; omega
  show V m c main_v3 (((cfg0.win 4).blk t).view.emb (ix2 a b : S256x256.Idx)) = _
  rw [h]

/-- A window handed whole: its block is the array as the launch finds it. -/
theorem blk5_apply (c : Dev nD) (t : Fin cfg0.N) (a : Fin 256) (b : Fin 256) :
    iblk m c 5 t (ix2 a b) = V m c main_v7 (ix2 a b) := by
  obtain ⟨-, -, -, -, e0, e1, -⟩ := idx_whole t
  have h : ((cfg0.win 5).blk t).view.emb (ix2 a b : S256x256.Idx) = (ix2 a b : S256x256.Idx) := by
    funext d; apply Fin.ext
    match d with
    | ⟨0, _⟩ => show win0_5.index t (0 : Fin 2) * 256 + 1 * a.val = a.val; omega
    | ⟨1, _⟩ => show win0_5.index t (1 : Fin 2) * 256 + 1 * b.val = b.val; omega
  show V m c main_v7 (((cfg0.win 5).blk t).view.emb (ix2 a b : S256x256.Idx)) = _
  rw [h]

/-- A window handed whole: its block is the array as the launch finds it. -/
theorem blk6_apply (c : Dev nD) (t : Fin cfg0.N) (a : Fin 256) (b : Fin 256) :
    iblk m c 6 t (ix2 a b) = V m c main_v11 (ix2 a b) := by
  obtain ⟨-, -, -, -, -, -, e0, e1, -⟩ := idx_whole t
  have h : ((cfg0.win 6).blk t).view.emb (ix2 a b : S256x256.Idx) = (ix2 a b : S256x256.Idx) := by
    funext d; apply Fin.ext
    match d with
    | ⟨0, _⟩ => show win0_6.index t (0 : Fin 2) * 256 + 1 * a.val = a.val; omega
    | ⟨1, _⟩ => show win0_6.index t (1 : Fin 2) * 256 + 1 * b.val = b.val; omega
  show V m c main_v11 (((cfg0.win 6).blk t).view.emb (ix2 a b : S256x256.Idx)) = _
  rw [h]

/-- A window handed whole: its block is the array as the launch finds it. -/
theorem blk7_apply (c : Dev nD) (t : Fin cfg0.N) (a : Fin 1) (b : Fin 256) :
    iblk m c 7 t (ix2 a b) = V m c main_v13 (ix2 a b) := by
  obtain ⟨-, -, -, -, -, -, -, -, e0, e1, -⟩ := idx_whole t
  have h : ((cfg0.win 7).blk t).view.emb (ix2 a b : S1x256.Idx) = (ix2 a b : S1x256.Idx) := by
    funext d; apply Fin.ext
    match d with
    | ⟨0, _⟩ => show win0_7.index t (0 : Fin 2) * 1 + 1 * a.val = a.val; omega
    | ⟨1, _⟩ => show win0_7.index t (1 : Fin 2) * 256 + 1 * b.val = b.val; omega
  show V m c main_v13 (((cfg0.win 7).blk t).view.emb (ix2 a b : S1x256.Idx)) = _
  rw [h]

/-- A window handed whole: its block is the array as the launch finds it. -/
theorem blk8_apply (c : Dev nD) (t : Fin cfg0.N) (a : Fin 1) (b : Fin 256) :
    iblk m c 8 t (ix2 a b) = V m c main_v14 (ix2 a b) := by
  obtain ⟨-, -, -, -, -, -, -, -, -, -, e0, e1, -⟩ := idx_whole t
  have h : ((cfg0.win 8).blk t).view.emb (ix2 a b : S1x256.Idx) = (ix2 a b : S1x256.Idx) := by
    funext d; apply Fin.ext
    match d with
    | ⟨0, _⟩ => show win0_8.index t (0 : Fin 2) * 1 + 1 * a.val = a.val; omega
    | ⟨1, _⟩ => show win0_8.index t (1 : Fin 2) * 256 + 1 * b.val = b.val; omega
  show V m c main_v14 (((cfg0.win 8).blk t).view.emb (ix2 a b : S1x256.Idx)) = _
  rw [h]

/-- A window handed whole: its block is the array as the launch finds it. -/
theorem blk9_apply (c : Dev nD) (t : Fin cfg0.N) (a : Fin 1) (b : Fin 256) :
    iblk m c 9 t (ix2 a b) = V m c main_v16 (ix2 a b) := by
  obtain ⟨-, -, -, -, -, -, -, -, -, -, -, -, e0, e1, -⟩ := idx_whole t
  have h : ((cfg0.win 9).blk t).view.emb (ix2 a b : S1x256.Idx) = (ix2 a b : S1x256.Idx) := by
    funext d; apply Fin.ext
    match d with
    | ⟨0, _⟩ => show win0_9.index t (0 : Fin 2) * 1 + 1 * a.val = a.val; omega
    | ⟨1, _⟩ => show win0_9.index t (1 : Fin 2) * 256 + 1 * b.val = b.val; omega
  show V m c main_v16 (((cfg0.win 9).blk t).view.emb (ix2 a b : S1x256.Idx)) = _
  rw [h]

/-- A window handed whole: its block is the array as the launch finds it. -/
theorem blk10_apply (c : Dev nD) (t : Fin cfg0.N) (a : Fin 1) (b : Fin 256) :
    iblk m c 10 t (ix2 a b) = V m c main_v18 (ix2 a b) := by
  obtain ⟨-, -, -, -, -, -, -, -, -, -, -, -, -, -, e0, e1⟩ := idx_whole t
  have h : ((cfg0.win 10).blk t).view.emb (ix2 a b : S1x256.Idx) = (ix2 a b : S1x256.Idx) := by
    funext d; apply Fin.ext
    match d with
    | ⟨0, _⟩ => show win0_10.index t (0 : Fin 2) * 1 + 1 * a.val = a.val; omega
    | ⟨1, _⟩ => show win0_10.index t (1 : Fin 2) * 256 + 1 * b.val = b.val; omega
  show V m c main_v18 (((cfg0.win 10).blk t).view.emb (ix2 a b : S1x256.Idx)) = _
  rw [h]

/-- An entry of the output block sits at the same row of the result array. -/
theorem out_emb (t : Fin cfg0.N) (p : Fin 1024) (q : Fin 256) :
    ((cfg0.win 11).blk t).view.emb (ix2 p q : S1024x256.Idx) = (ix2 (row t p) q : S32768x256.Idx) := by
  obtain ⟨-, -, -, -, -, -, -, e0, e1⟩ := idx_rows t
  funext a; apply Fin.ext
  match a with
  | ⟨0, _⟩ => show win0_11.index t (0 : Fin 2) * 1024 + 1 * p.val = 1024 * t.val + p.val; omega
  | ⟨1, _⟩ => show win0_11.index t (1 : Fin 2) * 256 + 1 * q.val = q.val; omega

/-- An index of the result array is in point `t`'s output block iff each coordinate is in the block's range. -/
theorem mem_out (t : Fin cfg0.N) (i : S32768x256.Idx) :
    i ∈ ((cfg0.win 11).blk t).view.set ↔ ∀ a : Fin 2, win0_11.index t a * S1024x256.size a ≤ (i a).val ∧ (i a).val < win0_11.index t a * S1024x256.size a + S1024x256.size a := by
  show i ∈ ((View.whole main_v19).slice (win0_11.rect t)).set ↔ _
  rw [View.set_slice_whole, Rect.mem_set_unit]
  exact Iff.rfl

/-- Every index of the result array is in the output block of the point its row falls in. -/
theorem out_cover (i : S32768x256.Idx) :
    ∃ t : Fin cfg0.N, (cfg0.win 11).flush t = true ∧ i ∈ ((cfg0.win 11).blk t).view.set := by
  have hi0 : (i 0).val < 32768 := (i 0).isLt
  have hi1 : (i 1).val < 256 := (i 1).isLt
  have hN : (i 0).val / 1024 < cfg0.N := lt_of_lt_of_eq (by omega : (i 0).val / 1024 < 32) N_0.symm
  obtain ⟨-, -, -, -, -, -, -, e0, e1⟩ := idx_rows ⟨(i 0).val / 1024, hN⟩
  refine ⟨⟨(i 0).val / 1024, hN⟩, flush0_11 _, ?_⟩
  rw [mem_out]
  intro a
  match a with
  | ⟨0, _⟩ =>
    show win0_11.index ⟨(i 0).val / 1024, hN⟩ (0 : Fin 2) * 1024 ≤ (i 0).val ∧ (i 0).val < win0_11.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win0_11.index ⟨(i 0).val / 1024, hN⟩ (1 : Fin 2) * 256 ≤ (i 1).val ∧ (i 1).val < win0_11.index ⟨(i 0).val / 1024, hN⟩ (1 : Fin 2) * 256 + 256
    rw [e1]; omega

end Cert.KernelIdeal.RegionValue

end
-- ==== Proof.GruCell.lean ====
/-
  One row of a gated recurrent cell over eight neighbours, on the extended reals, and the whole-array function
  built from it.

  A row `x` of 256 inputs, the row `h` of the summed neighbour state and the eight neighbour rows `hs n` give, at
  output column `q`:
    reset gates   r n = logistic ((x · wr + br) q + (hs n · ur + bu) q)        one per neighbour,
    gated sum     s   = ∑ n, r n * hs n q,
    update gate   z   = logistic ((x · wz) q + (h · uz) q + bz q),
    candidate     c   = tanh ((x · wn) q + (s · un) q + bn q),
    result            = (1 - z) * c + z * h q,
  where `v · w` at `q` is `∑ k, v k * w k q`: every weight is given as (input coordinate, output coordinate).
  Nothing here needs a finite entry: only sums, products and the two transcendental functions are written, each the
  extended reals' own.
-/
import Idealize.ShloMosaic.PureOps.Ideal
import Idealize.ShloMosaic.Lib.ValueIdx

noncomputable section

open scoped BigOperators

namespace Cert.GruCell

open Idealize.ShloMosaic Idealize.ShloMosaic.ValueIdx

/-- A row against a weight matrix given as (input coordinate, output coordinate), at output column `q`. -/
def proj (v : Fin 256 → EReal) (w : Fin 256 → Fin 256 → EReal) (q : Fin 256) : EReal :=
  ∑ k : Fin 256, v k * w k q

/-- The reset-gated sum of the eight neighbour rows at column `q`: neighbour `n` enters with weight
    `logistic` of the input's projection plus that neighbour's own projection, each with its bias. -/
def gated (x : Fin 256 → EReal) (hs : Fin 8 → Fin 256 → EReal) (wr ur : Fin 256 → Fin 256 → EReal)
    (br bu : Fin 256 → EReal) (q : Fin 256) : EReal :=
  ∑ n : Fin 8, Ideal.logistic ((proj x wr q + br q) + (proj (hs n) ur q + bu q)) * hs n q

/-- The update gate at column `q`. -/
def update (x h : Fin 256 → EReal) (wz uz : Fin 256 → Fin 256 → EReal) (bz : Fin 256 → EReal) (q : Fin 256) : EReal :=
  Ideal.logistic ((proj x wz q + proj h uz q) + bz q)

/-- The candidate state at column `q`, from the input row and the gated neighbour sum `s`. -/
def candidate (x s : Fin 256 → EReal) (wn un : Fin 256 → Fin 256 → EReal) (bn : Fin 256 → EReal) (q : Fin 256) : EReal :=
  Ideal.tanh ((proj x wn q + proj s un q) + bn q)

/-- One row of the cell at column `q`: the update gate blends the candidate with the summed state. -/
def cell (x h : Fin 256 → EReal) (hs : Fin 8 → Fin 256 → EReal) (wr wz wn ur uz un : Fin 256 → Fin 256 → EReal)
    (br bu bz bn : Fin 256 → EReal) (q : Fin 256) : EReal :=
  (1 - update x h wz uz bz q) * candidate x (gated x hs wr ur br bu) wn un bn q + update x h wz uz bz q * h q

/-- The whole result array: row `i 0`, column `i 1`. The six weights arrive as (output, input) matrices and are read
    transposed; the two update-gate biases, and the two candidate biases, enter as their sums. -/
def G (X H : FVec Ideal ⟨2, ![32768, 256]⟩ .f32) (HS : FVec Ideal ⟨3, ![8, 32768, 256]⟩ .f32)
    (Wir : FVec Ideal ⟨2, ![256, 256]⟩ .f32) (bir : FVec Ideal ⟨1, ![256]⟩ .f32)
    (Whr : FVec Ideal ⟨2, ![256, 256]⟩ .f32) (bhr : FVec Ideal ⟨1, ![256]⟩ .f32)
    (Wiz : FVec Ideal ⟨2, ![256, 256]⟩ .f32) (biz : FVec Ideal ⟨1, ![256]⟩ .f32)
    (Whz : FVec Ideal ⟨2, ![256, 256]⟩ .f32) (bhz : FVec Ideal ⟨1, ![256]⟩ .f32)
    (Win : FVec Ideal ⟨2, ![256, 256]⟩ .f32) (bin : FVec Ideal ⟨1, ![256]⟩ .f32)
    (Whn : FVec Ideal ⟨2, ![256, 256]⟩ .f32) (bhn : FVec Ideal ⟨1, ![256]⟩ .f32) :
    FVec Ideal ⟨2, ![32768, 256]⟩ .f32 :=
  fun i => cell (fun k => X (ix2 (i 0) k)) (fun k => H (ix2 (i 0) k)) (fun n k => HS (ix3 n (i 0) k))
    (fun k q => Wir (ix2 q k)) (fun k q => Wiz (ix2 q k)) (fun k q => Win (ix2 q k))
    (fun k q => Whr (ix2 q k)) (fun k q => Whz (ix2 q k)) (fun k q => Whn (ix2 q k))
    (fun q => bir (ix1 q)) (fun q => bhr (ix1 q)) (fun q => biz (ix1 q) + bhz (ix1 q)) (fun q => bin (ix1 q) + bhn (ix1 q))
    (i 1)

end Cert.GruCell

end
-- ==== Proof.BlockIsCell.lean ====
/-
  The stored block of the cell's body, read at one element, is the specification's cell on that element's row.

  At the extended reals a format change is the identity, every elementwise operation reads through at an index, a
  product into the zero splat at (p, j) is the sum over k of lhs (p, k) * rhs (k, j), a band of the fused product is the
  product at the shifted column, a row broadcast reads its one row and a load through a whole rectangle is the block
  itself. So each payload of the body, read at (p, j), is the corresponding expression of the specification, the
  eight neighbour terms accumulating in the order of the specification's sum.
-/
import proofs.«177820_j4724464025751_2_alg».proof.Proof.IdealStored
import proofs.«177820_j4724464025751_2_alg».proof.Proof.GruCell
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.BlockValue

open Idealize.ShloMosaic Idealize.ShloMosaic.ValueIdx Idealize.SL.Sem Cert.KernelIdeal Cert.KernelIdeal.Gen Cert.KernelIdeal.Body

/-! ## The two products read at an element -/

/-- The square product's record. -/
abbrev DSq := dot_S1024x256_S256x256_S1024x256_1_0_0_1_n_n
/-- The fused product's record. -/
abbrev DFu := dot_S1024x256_S256x768_S1024x768_1_0_0_1_n_n

theorem lhsSq0 (i : S1024x256.Idx) (q : DSq.contr.Idx) : (DSq.lhsIdx i q 0).val = (i 0).val := by
  unfold DotDims.lhsIdx
  rw [dif_neg (show ¬(0 : Fin S1024x256.rank) ∈ DSq.lhsBatch by decide), dif_pos (show (0 : Fin S1024x256.rank) ∈ DSq.lhsNonContracting by decide)]
  rfl
theorem lhsSq1 (i : S1024x256.Idx) (q : DSq.contr.Idx) : (DSq.lhsIdx i q 1).val = (q ⟨0, by decide⟩).val :=
  DSq.lhsIdx_val_of_single rfl i q
theorem rhsSq0 (i : S1024x256.Idx) (q : DSq.contr.Idx) : (DSq.rhsIdx i q 0).val = (q ⟨0, by decide⟩).val :=
  DSq.rhsIdx_val_of_single rfl i q
theorem rhsSq1 (i : S1024x256.Idx) (q : DSq.contr.Idx) : (DSq.rhsIdx i q 1).val = (i 1).val := by
  unfold DotDims.rhsIdx
  rw [dif_neg (show ¬(1 : Fin S256x256.rank) ∈ DSq.rhsBatch by decide), dif_pos (show (1 : Fin S256x256.rank) ∈ DSq.rhsNonContracting by decide)]
  rfl

/-- A 1024 × 256 by 256 × 256 product into the zero splat, at (p, j): the sum over the contracted coordinate. -/
theorem mmSq_apply (lhs : FVec Ideal S1024x256 .bf16) (rhs : FVec Ideal S256x256 .bf16) (p : Fin 1024) (j : Fin 256) :
    matmul (F := Ideal) DSq none lhs rhs (constant (F := Ideal) S1024x256 .f32 0x00000000#32) (ix2 p j)
      = ∑ k : Fin 256, lhs (ix2 p k) * rhs (ix2 k j) := by
  simp only [matmul]
  rw [Ideal.matmul_constant_zero_apply, ← Equiv.sum_comp (contrEquiv1 DSq 256 rfl rfl).symm]
  refine Finset.sum_congr rfl fun k _ => ?_
  have hk := contrEquiv1_symm_val DSq 256 rfl rfl k
  have el : DSq.lhsIdx (ix2 p j) ((contrEquiv1 DSq 256 rfl rfl).symm k) = ix2 p k := funext fun a => Fin.ext (by
    match a with
    | ⟨0, _⟩ => exact lhsSq0 _ _
    | ⟨1, _⟩ => exact (lhsSq1 _ _).trans hk)
  have er : DSq.rhsIdx (ix2 p j) ((contrEquiv1 DSq 256 rfl rfl).symm k) = ix2 k j := funext fun a => Fin.ext (by
    match a with
    | ⟨0, _⟩ => exact (rhsSq0 _ _).trans hk
    | ⟨1, _⟩ => exact rhsSq1 _ _)
  rw [el, er]

theorem lhsFu0 (i : S1024x768.Idx) (q : DFu.contr.Idx) : (DFu.lhsIdx i q 0).val = (i 0).val := by
  unfold DotDims.lhsIdx
  rw [dif_neg (show ¬(0 : Fin S1024x256.rank) ∈ DFu.lhsBatch by decide), dif_pos (show (0 : Fin S1024x256.rank) ∈ DFu.lhsNonContracting by decide)]
  rfl
theorem lhsFu1 (i : S1024x768.Idx) (q : DFu.contr.Idx) : (DFu.lhsIdx i q 1).val = (q ⟨0, by decide⟩).val :=
  DFu.lhsIdx_val_of_single rfl i q
theorem rhsFu0 (i : S1024x768.Idx) (q : DFu.contr.Idx) : (DFu.rhsIdx i q 0).val = (q ⟨0, by decide⟩).val :=
  DFu.rhsIdx_val_of_single rfl i q
theorem rhsFu1 (i : S1024x768.Idx) (q : DFu.contr.Idx) : (DFu.rhsIdx i q 1).val = (i 1).val := by
  unfold DotDims.rhsIdx
  rw [dif_neg (show ¬(1 : Fin S256x768.rank) ∈ DFu.rhsBatch by decide), dif_pos (show (1 : Fin S256x768.rank) ∈ DFu.rhsNonContracting by decide)]
  rfl

/-- The 1024 × 256 by 256 × 768 product into the zero splat, at (p, c). -/
theorem mmFu_apply (lhs : FVec Ideal S1024x256 .bf16) (rhs : FVec Ideal S256x768 .bf16) (p : Fin 1024) (c : Fin 768) :
    matmul (F := Ideal) DFu none lhs rhs (constant (F := Ideal) S1024x768 .f32 0x00000000#32) (ix2 p c)
      = ∑ k : Fin 256, lhs (ix2 p k) * rhs (ix2 k c) := by
  simp only [matmul]
  rw [Ideal.matmul_constant_zero_apply, ← Equiv.sum_comp (contrEquiv1 DFu 256 rfl rfl).symm]
  refine Finset.sum_congr rfl fun k _ => ?_
  have hk := contrEquiv1_symm_val DFu 256 rfl rfl k
  have el : DFu.lhsIdx (ix2 p c) ((contrEquiv1 DFu 256 rfl rfl).symm k) = ix2 p k := funext fun a => Fin.ext (by
    match a with
    | ⟨0, _⟩ => exact lhsFu0 _ _
    | ⟨1, _⟩ => exact (lhsFu1 _ _).trans hk)
  have er : DFu.rhsIdx (ix2 p c) ((contrEquiv1 DFu 256 rfl rfl).symm k) = ix2 k c := funext fun a => Fin.ext (by
    match a with
    | ⟨0, _⟩ => exact (rhsFu0 _ _).trans hk
    | ⟨1, _⟩ => exact rhsFu1 _ _)
  rw [el, er]

/-! ## Layout operations and loads read at an element -/

theorem hz2 : (![0, 0] : Fin 2 → Nat) = fun _ => 0 := funext fun a => by fin_cases a <;> rfl

/-- A load through the whole rectangle is the block. -/
theorem ld_rows (x : Vec Ideal S1024x256 .f32) : View.ld x rRows = x := View.ld_unit_zero (S := S1024x256) hz2 _ x
theorem ld_fused (x : Vec Ideal S256x768 .bf16) : View.ld x rFused = x := View.ld_unit_zero (S := S256x768) hz2 _ x
theorem ld_sq (x : Vec Ideal S256x256 .bf16) : View.ld x rSq = x := View.ld_unit_zero (S := S256x256) hz2 _ x
theorem ld_row (x : Vec Ideal S1x256 .f32) : View.ld x rRow = x := View.ld_unit_zero (S := S1x256) hz2 _ x

/-- A neighbour slab cast to a matrix reads, at (p, j), the 8 × 1024 × 256 block at (n, p, j). -/
theorem slab_apply (x2 : Vec Ideal S8x1024x256 .f32) (o : Nat)
    (inb : ∀ a, (![o, 0, 0] : Fin 3 → Nat) a + S1x1024x256.size a ≤ S8x1024x256.size a) (n : Fin 8) (hn : n.val = o)
    (p : Fin 1024) (j : Fin 256) :
    shapeCast S1024x256 (View.ld x2 (Rect.unit (s := S8x1024x256) ![o, 0, 0] S1x1024x256.size inb))
        shapeCasts_S1x1024x256_S1024x256 (ix2 p j) = x2 (ix3 n p j) := by
  refine (shapeCast_1ab_ab_apply _ shapeCasts_S1x1024x256_S1024x256 p j).trans ?_
  show x2 _ = x2 _
  refine congrArg x2 (funext fun a => Fin.ext ?_)
  match a with
  | ⟨0, _⟩ => show o + 1 * 0 = n.val; omega
  | ⟨1, _⟩ => show 0 + 1 * p.val = p.val; omega
  | ⟨2, _⟩ => show 0 + 1 * j.val = j.val; omega

/-- A bias row broadcast over the rows reads its one row. -/
theorem bc_apply (v : FVec Ideal S1x256 .f32) (p : Fin 1024) (j : Fin 256) :
    broadcastTo S1024x256 v broadcasts_S1x256_S1024x256 (ix2 p j) = v (ix2 (0 : Fin 1) j) :=
  broadcastTo_1b_ab_apply v broadcasts_S1x256_S1024x256 p j

/-- The three bands of the fused product. -/
theorem band0_apply (X : FVec Ideal S1024x768 .f32) (p : Fin 1024) (j : Fin 256) :
    extractStridedSlice S1024x256 ![0, 0] X slices_S1024x768_o0_0_S1024x256 (ix2 p j) = X (ix2 p (⟨j.val, by omega⟩ : Fin 768)) :=
  slice2_axis1_apply 0 X slices_S1024x768_o0_0_S1024x256 p j _ (Nat.zero_add _).symm
theorem band1_apply (X : FVec Ideal S1024x768 .f32) (p : Fin 1024) (j : Fin 256) :
    extractStridedSlice S1024x256 ![0, 256] X slices_S1024x768_o0_256_S1024x256 (ix2 p j) = X (ix2 p (⟨256 + j.val, by omega⟩ : Fin 768)) :=
  slice2_axis1_apply 256 X slices_S1024x768_o0_256_S1024x256 p j _ rfl
theorem band2_apply (X : FVec Ideal S1024x768 .f32) (p : Fin 1024) (j : Fin 256) :
    extractStridedSlice S1024x256 ![0, 512] X slices_S1024x768_o0_512_S1024x256 (ix2 p j) = X (ix2 p (⟨512 + j.val, by omega⟩ : Fin 768)) :=
  slice2_axis1_apply 512 X slices_S1024x768_o0_512_S1024x256 p j _ rfl

/-- The two transcendental operations read at an element. -/
theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl

/-! ## The payloads read at an element -/

/-- The fused product at (p, c): the input row against column c of the fused weight. -/
theorem pay3_apply (v0 : Vec Ideal S1024x256 .f32) (v4 : Vec Ideal S256x768 .bf16) (p : Fin 1024) (c : Fin 768) :
    k0_pay3 (F := Ideal) v0 v4 (ix2 p c) = ∑ k : Fin 256, v0 (ix2 p k) * v4 (ix2 k c) := by
  unfold k0_pay3
  simp only [shapeCast_self]
  exact mmFu_apply _ _ p c

/-- The first band plus its bias row. -/
theorem pay4_apply (v0 : Vec Ideal S1024x256 .f32) (v4 : Vec Ideal S256x768 .bf16) (v8 : Vec Ideal S1x256 .f32)
    (p : Fin 1024) (j : Fin 256) :
    k0_pay4 (F := Ideal) v0 v4 v8 (ix2 p j)
      = (∑ k : Fin 256, v0 (ix2 p k) * v4 (ix2 k (⟨j.val, by omega⟩ : Fin 768))) + v8 (ix2 (0 : Fin 1) j) := by
  unfold k0_pay4
  simp only [shapeCast_self, addf_apply, band0_apply, bc_apply, pay3_apply]

theorem pay5_apply (v0 : Vec Ideal S1024x256 .f32) (v4 : Vec Ideal S256x768 .bf16) (p : Fin 1024) (j : Fin 256) :
    k0_pay5 (F := Ideal) v0 v4 (ix2 p j) = ∑ k : Fin 256, v0 (ix2 p k) * v4 (ix2 k (⟨256 + j.val, by omega⟩ : Fin 768)) := by
  unfold k0_pay5
  simp only [band1_apply, pay3_apply]

theorem pay6_apply (v0 : Vec Ideal S1024x256 .f32) (v4 : Vec Ideal S256x768 .bf16) (p : Fin 1024) (j : Fin 256) :
    k0_pay6 (F := Ideal) v0 v4 (ix2 p j) = ∑ k : Fin 256, v0 (ix2 p k) * v4 (ix2 k (⟨512 + j.val, by omega⟩ : Fin 768)) := by
  unfold k0_pay6
  simp only [band2_apply, pay3_apply]

theorem pay2_apply (v2 : Vec Ideal S1024x256 .f32) (i : S1024x256.Idx) : k0_pay2 (F := Ideal) v2 i = v2 i := rfl

theorem pay7_eq (v14 : Vec Ideal S256x256 .bf16) : k0_pay7 (F := Ideal) v14 = v14 := by
  unfold k0_pay7; exact shapeCast_self _ _

theorem pay8_eq (v16 : Vec Ideal S1x256 .f32) : k0_pay8 (F := Ideal) v16 = v16 := by
  unfold k0_pay8; exact shapeCast_self _ _

/-- A neighbour slab as a matrix. -/
theorem pay10_eq (v31 : Vec Ideal S1x1024x256 .f32) :
    k0_pay10 (F := Ideal) v31 = shapeCast S1024x256 v31 shapeCasts_S1x1024x256_S1024x256 := rfl

theorem pay13_eq (v75 : Vec Ideal S1x1024x256 .f32) :
    k0_pay13 (F := Ideal) v75 = shapeCast S1024x256 v75 shapeCasts_S1x1024x256_S1024x256 := rfl

/-- The first neighbour's term, added to the zero splat. -/
theorem pay9_apply (v0 : Vec Ideal S1024x256 .f32) (v4 : Vec Ideal S256x768 .bf16) (v8 : Vec Ideal S1x256 .f32)
    (v14 : Vec Ideal S256x256 .bf16) (v16 : Vec Ideal S1x256 .f32) (v20 : Vec Ideal S1x1024x256 .f32) (p : Fin 1024) (j : Fin 256) :
    k0_pay9 (F := Ideal) v0 v4 v8 v14 v16 v20 (ix2 p j)
      = Ideal.ofBits .f32 0x00000000#32
        + Ideal.logistic (k0_pay4 (F := Ideal) v0 v4 v8 (ix2 p j)
            + ((∑ k : Fin 256, shapeCast S1024x256 v20 shapeCasts_S1x1024x256_S1024x256 (ix2 p k) * v14 (ix2 k j))
                + v16 (ix2 (0 : Fin 1) j)))
          * shapeCast S1024x256 v20 shapeCasts_S1x1024x256_S1024x256 (ix2 p j) := by
  unfold k0_pay9
  simp only [pay7_eq, pay8_eq, addf_apply, mulf_apply, logistic_apply, mmSq_apply, bc_apply, truncf_apply, broadcast_apply]
  rfl

/-- A neighbour's own projection plus its bias row. -/
theorem pay11_apply (v14 : Vec Ideal S256x256 .bf16) (v16 : Vec Ideal S1x256 .f32) (v31 : Vec Ideal S1x1024x256 .f32)
    (p : Fin 1024) (j : Fin 256) :
    k0_pay11 (F := Ideal) v14 v16 v31 (ix2 p j)
      = (∑ k : Fin 256, shapeCast S1024x256 v31 shapeCasts_S1x1024x256_S1024x256 (ix2 p k) * v14 (ix2 k j))
          + v16 (ix2 (0 : Fin 1) j) := by
  unfold k0_pay11
  simp only [pay7_eq, pay8_eq, pay10_eq, addf_apply, mmSq_apply, bc_apply, truncf_apply]

theorem pay14_apply (v15 : FVec Ideal S256x256 .bf16) (v17 : FVec Ideal S1x256 .f32) (v75 : Vec Ideal S1x1024x256 .f32)
    (p : Fin 1024) (j : Fin 256) :
    k0_pay14 (F := Ideal) v15 v17 v75 (ix2 p j)
      = (∑ k : Fin 256, shapeCast S1024x256 v75 shapeCasts_S1x1024x256_S1024x256 (ix2 p k) * v15 (ix2 k j))
          + v17 (ix2 (0 : Fin 1) j) := by
  unfold k0_pay14
  simp only [pay13_eq, addf_apply, mmSq_apply, bc_apply, truncf_apply]

/-- The running sum after five neighbours: the second neighbour's term from its prepared parts, then three more. -/
theorem pay12_apply (v11 : FVec Ideal S1024x256 .f32) (v15 : FVec Ideal S256x256 .bf16) (v17 : FVec Ideal S1x256 .f32)
    (v29 v32 v36 : FVec Ideal S1024x256 .f32) (v42 v53 v64 : Vec Ideal S1x1024x256 .f32) (p : Fin 1024) (j : Fin 256) :
    k0_pay12 (F := Ideal) v11 v15 v17 v29 v32 v36 v42 v53 v64 (ix2 p j)
      = (((v29 (ix2 p j) + Ideal.logistic (v11 (ix2 p j) + v36 (ix2 p j)) * v32 (ix2 p j))
          + Ideal.logistic (v11 (ix2 p j)
              + ((∑ k : Fin 256, shapeCast S1024x256 v42 shapeCasts_S1x1024x256_S1024x256 (ix2 p k) * v15 (ix2 k j))
                  + v17 (ix2 (0 : Fin 1) j)))
            * shapeCast S1024x256 v42 shapeCasts_S1x1024x256_S1024x256 (ix2 p j))
          + Ideal.logistic (v11 (ix2 p j)
              + ((∑ k : Fin 256, shapeCast S1024x256 v53 shapeCasts_S1x1024x256_S1024x256 (ix2 p k) * v15 (ix2 k j))
                  + v17 (ix2 (0 : Fin 1) j)))
            * shapeCast S1024x256 v53 shapeCasts_S1x1024x256_S1024x256 (ix2 p j))
          + Ideal.logistic (v11 (ix2 p j)
              + ((∑ k : Fin 256, shapeCast S1024x256 v64 shapeCasts_S1x1024x256_S1024x256 (ix2 p k) * v15 (ix2 k j))
                  + v17 (ix2 (0 : Fin 1) j)))
            * shapeCast S1024x256 v64 shapeCasts_S1x1024x256_S1024x256 (ix2 p j) := by
  unfold k0_pay12
  simp only [addf_apply, mulf_apply, logistic_apply, mmSq_apply, bc_apply, truncf_apply]

/-- The update gate. -/
theorem pay15_apply (v3 : FVec Ideal S1024x256 .bf16) (v12 : FVec Ideal S1024x256 .f32) (v107 : Vec Ideal S256x256 .bf16)
    (v111 : Vec Ideal S1x256 .f32) (p : Fin 1024) (j : Fin 256) :
    k0_pay15 (F := Ideal) v3 v12 v107 v111 (ix2 p j)
      = Ideal.logistic ((v12 (ix2 p j) + ∑ k : Fin 256, v3 (ix2 p k) * v107 (ix2 k j)) + v111 (ix2 (0 : Fin 1) j)) := by
  unfold k0_pay15
  simp only [shapeCast_self, addf_apply, logistic_apply, mmSq_apply, bc_apply]

/-- The gated sum of all eight neighbours, as the body accumulates its last three terms onto the first five. -/
def acc8 (v11 : FVec Ideal S1024x256 .f32) (v15 : FVec Ideal S256x256 .bf16) (v17 : FVec Ideal S1x256 .f32)
    (v73 v76 v80 : FVec Ideal S1024x256 .f32) (v86 v97 : Vec Ideal S1x1024x256 .f32) (p : Fin 1024) (j : Fin 256) : EReal :=
  ((v73 (ix2 p j) + Ideal.logistic (v11 (ix2 p j) + v80 (ix2 p j)) * v76 (ix2 p j))
      + Ideal.logistic (v11 (ix2 p j)
          + ((∑ k : Fin 256, shapeCast S1024x256 v86 shapeCasts_S1x1024x256_S1024x256 (ix2 p k) * v15 (ix2 k j))
              + v17 (ix2 (0 : Fin 1) j)))
        * shapeCast S1024x256 v86 shapeCasts_S1x1024x256_S1024x256 (ix2 p j))
      + Ideal.logistic (v11 (ix2 p j)
          + ((∑ k : Fin 256, shapeCast S1024x256 v97 shapeCasts_S1x1024x256_S1024x256 (ix2 p k) * v15 (ix2 k j))
              + v17 (ix2 (0 : Fin 1) j)))
        * shapeCast S1024x256 v97 shapeCasts_S1x1024x256_S1024x256 (ix2 p j)

/-- The candidate's argument before its bias: the third band plus the gated sum against the candidate's state weight. -/
theorem pay16_apply (v11 v13 : FVec Ideal S1024x256 .f32) (v15 : FVec Ideal S256x256 .bf16) (v17 : FVec Ideal S1x256 .f32)
    (v73 v76 v80 : FVec Ideal S1024x256 .f32) (v86 v97 : Vec Ideal S1x1024x256 .f32) (v116 : Vec Ideal S256x256 .bf16)
    (p : Fin 1024) (j : Fin 256) :
    k0_pay16 (F := Ideal) v11 v13 v15 v17 v73 v76 v80 v86 v97 v116 (ix2 p j)
      = v13 (ix2 p j) + ∑ k : Fin 256, acc8 v11 v15 v17 v73 v76 v80 v86 v97 p k * v116 (ix2 k j) := by
  unfold k0_pay16
  simp only [shapeCast_self, addf_apply, mulf_apply, logistic_apply, mmSq_apply, bc_apply, truncf_apply]
  rfl

/-- The stored value: the gate blends the candidate with the summed state. -/
theorem pay1_apply (v2 : Vec Ideal S1024x256 .f32) (v115 v120 : FVec Ideal S1024x256 .f32) (v121 : Vec Ideal S1x256 .f32)
    (p : Fin 1024) (j : Fin 256) :
    k0_pay1 (F := Ideal) v2 v115 v120 v121 (ix2 p j)
      = (1 - v115 (ix2 p j)) * Ideal.tanh (v120 (ix2 p j) + v121 (ix2 (0 : Fin 1) j)) + v115 (ix2 p j) * v2 (ix2 p j) := by
  unfold k0_pay1
  simp only [shapeCast_self, addf_apply, mulf_apply, subf_apply, tanh_apply, bc_apply, broadcast_apply]
  rw [show (Scalar.ofBits .f32 0x3F800000#32 : Ideal .f32) = 1 from Ideal.ofBits_one_f32]

/-! ## The body's composites read at an element -/

section Composite

variable (x0 x1 : Vec Ideal S1024x256 .f32) (x2 : Vec Ideal S8x1024x256 .f32) (x3 : Vec Ideal S256x768 .bf16)
  (x4 x5 x6 : Vec Ideal S256x256 .bf16) (x7 x8 x9 x10 : Vec Ideal S1x256 .f32) (p : Fin 1024)

theorem slab0 (j : Fin 256) : shapeCast (s := S1x1024x256) (α := Ideal .f32) S1024x256 (View.ld x2 rSlab0) shapeCasts_S1x1024x256_S1024x256 (ix2 p j)
    = x2 (ix3 (0 : Fin 8) p j) := slab_apply x2 0 _ 0 rfl p j
theorem slab1 (j : Fin 256) : shapeCast (s := S1x1024x256) (α := Ideal .f32) S1024x256 (View.ld x2 rSlab1) shapeCasts_S1x1024x256_S1024x256 (ix2 p j)
    = x2 (ix3 (1 : Fin 8) p j) := slab_apply x2 1 _ 1 rfl p j
theorem slab2 (j : Fin 256) : shapeCast (s := S1x1024x256) (α := Ideal .f32) S1024x256 (View.ld x2 rSlab2) shapeCasts_S1x1024x256_S1024x256 (ix2 p j)
    = x2 (ix3 (2 : Fin 8) p j) := slab_apply x2 2 _ 2 rfl p j
theorem slab3 (j : Fin 256) : shapeCast (s := S1x1024x256) (α := Ideal .f32) S1024x256 (View.ld x2 rSlab3) shapeCasts_S1x1024x256_S1024x256 (ix2 p j)
    = x2 (ix3 (3 : Fin 8) p j) := slab_apply x2 3 _ 3 rfl p j
theorem slab4 (j : Fin 256) : shapeCast (s := S1x1024x256) (α := Ideal .f32) S1024x256 (View.ld x2 rSlab4) shapeCasts_S1x1024x256_S1024x256 (ix2 p j)
    = x2 (ix3 (4 : Fin 8) p j) := slab_apply x2 4 _ 4 rfl p j
theorem slab5 (j : Fin 256) : shapeCast (s := S1x1024x256) (α := Ideal .f32) S1024x256 (View.ld x2 rSlab5) shapeCasts_S1x1024x256_S1024x256 (ix2 p j)
    = x2 (ix3 (5 : Fin 8) p j) := slab_apply x2 5 _ 5 rfl p j
theorem slab6 (j : Fin 256) : shapeCast (s := S1x1024x256) (α := Ideal .f32) S1024x256 (View.ld x2 rSlab6) shapeCasts_S1x1024x256_S1024x256 (ix2 p j)
    = x2 (ix3 (6 : Fin 8) p j) := slab_apply x2 6 _ 6 rfl p j
theorem slab7 (j : Fin 256) : shapeCast (s := S1x1024x256) (α := Ideal .f32) S1024x256 (View.ld x2 rSlab7) shapeCasts_S1x1024x256_S1024x256 (ix2 p j)
    = x2 (ix3 (7 : Fin 8) p j) := slab_apply x2 7 _ 7 rfl p j

/-- The input row's projection onto the reset gate's columns plus the first bias row. -/
theorem inReset_apply (j : Fin 256) :
    inReset x0 x3 x7 (ix2 p j)
      = (∑ k : Fin 256, x0 (ix2 p k) * x3 (ix2 k (⟨j.val, by omega⟩ : Fin 768))) + x7 (ix2 (0 : Fin 1) j) := by
  unfold inReset
  rw [ld_rows, ld_fused, ld_row]
  exact pay4_apply x0 x3 x7 p j

/-- Neighbour n's term of the gated sum at column j of row p. -/
def term (n : Fin 8) (j : Fin 256) : EReal :=
  Ideal.logistic (((∑ k : Fin 256, x0 (ix2 p k) * x3 (ix2 k (⟨j.val, by omega⟩ : Fin 768))) + x7 (ix2 (0 : Fin 1) j))
      + ((∑ k : Fin 256, x2 (ix3 n p k) * x4 (ix2 k j)) + x8 (ix2 (0 : Fin 1) j))) * x2 (ix3 n p j)

/-- The running sum after the first five neighbours. -/
theorem acc5_apply (j : Fin 256) :
    acc5 x0 x2 x3 x4 x7 x8 (ix2 p j)
      = term x0 x2 x3 x4 x7 x8 p 0 j + term x0 x2 x3 x4 x7 x8 p 1 j + term x0 x2 x3 x4 x7 x8 p 2 j
          + term x0 x2 x3 x4 x7 x8 p 3 j + term x0 x2 x3 x4 x7 x8 p 4 j := by
  unfold acc5
  simp only [ld_rows, ld_fused, ld_sq, ld_row, pay7_eq, pay8_eq, pay10_eq]
  refine (pay12_apply _ _ _ _ _ _ _ _ _ p j).trans ?_
  simp only [pay9_apply, pay11_apply, pay4_apply, inReset_apply, slab0, slab1, slab2, slab3, slab4,
    Ideal.ofBits_zero_f32, zero_add]
  rfl

/-- The gated sum of all eight neighbours. -/
theorem acc8_apply (k : Fin 256) :
    acc8 (inReset x0 x3 x7) x4 x8 (acc5 x0 x2 x3 x4 x7 x8)
        (shapeCast S1024x256 (View.ld x2 rSlab5) shapeCasts_S1x1024x256_S1024x256) (k0_pay14 x4 x8 (View.ld x2 rSlab5))
        (View.ld x2 rSlab6) (View.ld x2 rSlab7) p k
      = ∑ n : Fin 8, term x0 x2 x3 x4 x7 x8 p n k := by
  unfold acc8
  simp only [pay14_apply, inReset_apply, acc5_apply, slab5, slab6, slab7]
  rw [Fin.sum_univ_eight]
  rfl

/-- The update gate. -/
theorem gate_apply (j : Fin 256) :
    gate x0 x1 x3 x5 x9 (ix2 p j)
      = Ideal.logistic (((∑ k : Fin 256, x0 (ix2 p k) * x3 (ix2 k (⟨256 + j.val, by omega⟩ : Fin 768)))
          + ∑ k : Fin 256, x1 (ix2 p k) * x5 (ix2 k j)) + x9 (ix2 (0 : Fin 1) j)) := by
  unfold gate
  simp only [ld_rows, ld_fused, ld_sq, ld_row]
  refine (pay15_apply _ _ _ _ p j).trans ?_
  simp only [pay2_apply, pay5_apply]

/-- The candidate's argument before its bias. -/
theorem preCand_apply (j : Fin 256) :
    preCand x0 x2 x3 x4 x6 x7 x8 (ix2 p j)
      = (∑ k : Fin 256, x0 (ix2 p k) * x3 (ix2 k (⟨512 + j.val, by omega⟩ : Fin 768)))
          + ∑ k : Fin 256, (∑ n : Fin 8, term x0 x2 x3 x4 x7 x8 p n k) * x6 (ix2 k j) := by
  unfold preCand
  simp only [ld_rows, ld_fused, ld_sq, ld_row, pay7_eq, pay8_eq, pay13_eq]
  refine (pay16_apply _ _ _ _ _ _ _ _ _ _ p j).trans ?_
  simp only [acc8_apply, pay6_apply]

end Composite

/-- The stored block at (p, q) is the cell of row p at column q. -/
theorem stored_apply
    (x0 x1 : Vec Ideal S1024x256 .f32) (x2 : Vec Ideal S8x1024x256 .f32) (x3 : Vec Ideal S256x768 .bf16)
    (x4 x5 x6 : Vec Ideal S256x256 .bf16) (x7 x8 x9 x10 : Vec Ideal S1x256 .f32) (p : Fin 1024) (q : Fin 256) :
    Cert.KernelIdeal.Body.stored (F := Ideal) x0 x1 x2 x3 x4 x5 x6 x7 x8 x9 x10 (ix2 p q)
      = Cert.GruCell.cell (fun k => x0 (ix2 p k)) (fun k => x1 (ix2 p k)) (fun n k => x2 (ix3 n p k))
          (fun k j => x3 (ix2 k (⟨j.val, by omega⟩ : Fin 768)))
          (fun k j => x3 (ix2 k (⟨256 + j.val, by omega⟩ : Fin 768)))
          (fun k j => x3 (ix2 k (⟨512 + j.val, by omega⟩ : Fin 768)))
          (fun k j => x4 (ix2 k j)) (fun k j => x5 (ix2 k j)) (fun k j => x6 (ix2 k j))
          (fun j => x7 (ix2 (0 : Fin 1) j)) (fun j => x8 (ix2 (0 : Fin 1) j))
          (fun j => x9 (ix2 (0 : Fin 1) j)) (fun j => x10 (ix2 (0 : Fin 1) j)) q := by
  unfold stored
  simp only [ld_rows, ld_row]
  refine (pay1_apply _ _ _ _ p q).trans ?_
  rw [gate_apply, preCand_apply]
  rfl

end Cert.KernelIdeal.BlockValue

end
-- ==== Proof.EntryContents.lean ====
/-
  What the launch finds in the buffers it stages from. Before the launch the host operations transpose each of the six
  256 × 256 weights and narrow it (the identity on exact values), join three of the transposed weights along the
  columns into one 256 × 768 matrix, reshape two biases to rows of one line, and add the two remaining pairs of biases
  and reshape the sums to rows. Read at an index, each of the eight staged buffers is therefore an entry of an argument
  array: a transposed weight at `(k, j)` is the weight at `(j, k)`, the joined matrix at column `256 n + j` is the
  `n`-th of its three weights at `(j, k)`, and a bias row at `(0, j)` is the bias (or the sum of the two biases) at `j`.

  First each buffer's contents are stated as the term the operations compute from the argument arrays; then each term
  is read at an index, outermost operation first.
-/
import proofs.«177820_j4724464025751_2_alg».proof.Proof.IdealEntry
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Idealize.ShloMosaic Idealize.ShloMosaic.TcCoe Idealize.SL.Sem Idealize.ShloMosaic.ValueIdx
open Cert.KernelIdeal Cert.KernelIdeal.Gen Cert.KernelIdeal.Region

variable (m : (ℓ : Loc nD τ sig) → Buf (Elt Ideal) ℓ) (c : Dev nD)

/-! ## The host operations' terms

Each buffer the launch stages from, as the host operations leave it: the term, over the start memory's argument
arrays, that the operations writing it compute. -/

section Terms

open Idealize.ShloMosaic.StableHlo

/-- A three-operand operation's result with each operand's contents at its own reference. -/
theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (G : Valuation τ' sig' Val) :
    (nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- A transposed, narrowed weight. -/
abbrev wT (W : FVec Ideal S256x256 .f32) : FVec Ideal S256x256 .bf16 :=
  truncf .bf16 (transpose S256x256 [1, 0] W transposes_S256x256_S256x256_1_0) bitsLt_bf16_f32

theorem v3_term : @Eq (FVec Ideal S256x256 .bf16) (V m c main_v3) (wT (m ((c : Thread nD τ).loc main_arg5))) := by
  dsimp only [V, Gen.hostOps0]; after_results
theorem v7_term : @Eq (FVec Ideal S256x256 .bf16) (V m c main_v7) (wT (m ((c : Thread nD τ).loc main_arg9))) := by
  dsimp only [V, Gen.hostOps0]; after_results
theorem v11_term : @Eq (FVec Ideal S256x256 .bf16) (V m c main_v11) (wT (m ((c : Thread nD τ).loc main_arg13))) := by
  dsimp only [V, Gen.hostOps0]; after_results

theorem v13_term : @Eq (FVec Ideal S1x256 .f32) (V m c main_v13)
    (shapeCast S1x256 (m ((c : Thread nD τ).loc main_arg4)) shapeCasts_S256_S1x256) := by
  dsimp only [V, Gen.hostOps0]; after_results; rfl
theorem v14_term : @Eq (FVec Ideal S1x256 .f32) (V m c main_v14)
    (shapeCast S1x256 (m ((c : Thread nD τ).loc main_arg6)) shapeCasts_S256_S1x256) := by
  dsimp only [V, Gen.hostOps0]; after_results; rfl
theorem v16_term : @Eq (FVec Ideal S1x256 .f32) (V m c main_v16)
    (shapeCast S1x256 (addf (m ((c : Thread nD τ).loc main_arg8) : FVec Ideal S256 .f32) (m ((c : Thread nD τ).loc main_arg10))) shapeCasts_S256_S1x256) := by
  dsimp only [V, Gen.hostOps0]; after_results; rfl
theorem v18_term : @Eq (FVec Ideal S1x256 .f32) (V m c main_v18)
    (shapeCast S1x256 (addf (m ((c : Thread nD τ).loc main_arg12) : FVec Ideal S256 .f32) (m ((c : Thread nD τ).loc main_arg14))) shapeCasts_S256_S1x256) := by
  dsimp only [V, Gen.hostOps0]; after_results; rfl

theorem v12_term : @Eq (FVec Ideal S256x768 .bf16) (V m c main_v12)
    (concatenate S256x768 1 [⟨S256x256, wT (m ((c : Thread nD τ).loc main_arg3))⟩, ⟨S256x256, wT (m ((c : Thread nD τ).loc main_arg7))⟩,
      ⟨S256x256, wT (m ((c : Thread nD τ).loc main_arg11))⟩] concatenates_S256x256_S256x256_S256x256_S256x768_d1) := by
  dsimp only [V, Gen.hostOps0]
  simp only [after_cons, after_nil]
  repeat (first
    | rw [unary_result] | rw [nary3_result]
    | (rw [unary_result_ne]; rotate_left; decide)
    | (rw [binary_result_ne]; rotate_left; decide)
    | (rw [reshape_result_ne]; rotate_left; decide))
  rfl

end Terms

/-! ## The terms at an index -/

section Reads

/-- A transposed, narrowed weight at `(k, j)` is the weight at `(j, k)`: narrowing is the identity on exact values. -/
theorem wT_apply (W : FVec Ideal S256x256 .f32) (k j : Fin 256) : wT W (ix2 k j) = W (ix2 j k) :=
  transpose_ix2_apply W transposes_S256x256_S256x256_1_0 k j

/-- Three 256-column matrices joined along the columns, read in band `n` (columns `256 n … 256 n + 255`): the
    `n`-th matrix at the column less the band's start. -/
theorem bands_apply (A B C : FVec Ideal S256x256 .bf16) (n : Nat) (hn : n < 3) (X : FVec Ideal S256x256 .bf16)
    (hX : [(⟨S256x256, A⟩ : (s : Shape) × (s.Idx → EReal)), ⟨S256x256, B⟩, ⟨S256x256, C⟩][n]'hn = ⟨S256x256, X⟩)
    (pre : Nat) (hpre : pre = 256 * n) (k j : Fin 256) (col : Fin 768) (hcol : pre + j.val = col.val) :
    concatenate S256x768 1 [⟨S256x256, A⟩, ⟨S256x256, B⟩, ⟨S256x256, C⟩]
      concatenates_S256x256_S256x256_S256x256_S256x768_d1 (ix2 k col) = X (ix2 k j) := by
  refine concatenate_apply_piece (1 : Fin S256x768.rank) [⟨S256x256, A⟩, ⟨S256x256, B⟩, ⟨S256x256, C⟩]
    concatenates_S256x256_S256x256_S256x256_S256x768_d1 (ix2 k col) n hn S256x256 X hX rfl pre ?_ (ix2 k j) ?_ hcol
  · subst hpre
    match n, hn with
    | 0, _ => rfl
    | 1, _ => rfl
    | 2, _ => rfl
  · intro b
    match b with
    | ⟨0, _⟩ => exact fun _ => rfl
    | ⟨1, _⟩ => exact fun h => absurd rfl h

end Reads

/-! ## The buffers the launch stages from, at an index -/

section Entry

/-- The joined weight matrix in its first band: the first weight, transposed. -/
theorem fused_band0 (k j : Fin 256) :
    V m c main_v12 (ix2 k (⟨j.val, by omega⟩ : Fin 768)) = m ((c : Thread nD τ).loc main_arg3) (ix2 j k) := by
  refine (congrFun (v12_term m c) (ix2 k (⟨j.val, by omega⟩ : Fin 768))).trans ?_
  generalize m ((c : Thread nD τ).loc main_arg3) = W0
  generalize m ((c : Thread nD τ).loc main_arg7) = W1
  generalize m ((c : Thread nD τ).loc main_arg11) = W2
  exact (bands_apply (wT W0) (wT W1) (wT W2) 0 (by omega) (wT W0) rfl 0 rfl k j _ (Nat.zero_add _)).trans (wT_apply W0 k j)

/-- The joined weight matrix in its second band: the second weight, transposed. -/
theorem fused_band1 (k j : Fin 256) :
    V m c main_v12 (ix2 k (⟨256 + j.val, by omega⟩ : Fin 768)) = m ((c : Thread nD τ).loc main_arg7) (ix2 j k) := by
  refine (congrFun (v12_term m c) (ix2 k (⟨256 + j.val, by omega⟩ : Fin 768))).trans ?_
  generalize m ((c : Thread nD τ).loc main_arg3) = W0
  generalize m ((c : Thread nD τ).loc main_arg7) = W1
  generalize m ((c : Thread nD τ).loc main_arg11) = W2
  exact (bands_apply (wT W0) (wT W1) (wT W2) 1 (by omega) (wT W1) rfl 256 rfl k j _ rfl).trans (wT_apply W1 k j)

/-- The joined weight matrix in its third band: the third weight, transposed. -/
theorem fused_band2 (k j : Fin 256) :
    V m c main_v12 (ix2 k (⟨512 + j.val, by omega⟩ : Fin 768)) = m ((c : Thread nD τ).loc main_arg11) (ix2 j k) := by
  refine (congrFun (v12_term m c) (ix2 k (⟨512 + j.val, by omega⟩ : Fin 768))).trans ?_
  generalize m ((c : Thread nD τ).loc main_arg3) = W0
  generalize m ((c : Thread nD τ).loc main_arg7) = W1
  generalize m ((c : Thread nD τ).loc main_arg11) = W2
  exact (bands_apply (wT W0) (wT W1) (wT W2) 2 (by omega) (wT W2) rfl 512 rfl k j _ rfl).trans (wT_apply W2 k j)

/-- The three hidden-state weights as staged: each the argument weight transposed. -/
theorem whr_apply (k j : Fin 256) : V m c main_v3 (ix2 k j) = m ((c : Thread nD τ).loc main_arg5) (ix2 j k) := by
  refine (congrFun (v3_term m c) (ix2 k j)).trans ?_
  generalize m ((c : Thread nD τ).loc main_arg5) = W
  exact wT_apply W k j

theorem whz_apply (k j : Fin 256) : V m c main_v7 (ix2 k j) = m ((c : Thread nD τ).loc main_arg9) (ix2 j k) := by
  refine (congrFun (v7_term m c) (ix2 k j)).trans ?_
  generalize m ((c : Thread nD τ).loc main_arg9) = W
  exact wT_apply W k j

theorem whn_apply (k j : Fin 256) : V m c main_v11 (ix2 k j) = m ((c : Thread nD τ).loc main_arg13) (ix2 j k) := by
  refine (congrFun (v11_term m c) (ix2 k j)).trans ?_
  generalize m ((c : Thread nD τ).loc main_arg13) = W
  exact wT_apply W k j

/-- The biases as staged: rows of one line, the bias (or the sum of a pair of biases) at the column. -/
theorem bir_apply (j : Fin 256) : V m c main_v13 (ix2 (0 : Fin 1) j) = m ((c : Thread nD τ).loc main_arg4) (ix1 j) := by
  refine (congrFun (v13_term m c) (ix2 (0 : Fin 1) j)).trans ?_
  generalize m ((c : Thread nD τ).loc main_arg4) = b
  exact shapeCast_a_1a_apply b shapeCasts_S256_S1x256 0 j

theorem bhr_apply (j : Fin 256) : V m c main_v14 (ix2 (0 : Fin 1) j) = m ((c : Thread nD τ).loc main_arg6) (ix1 j) := by
  refine (congrFun (v14_term m c) (ix2 (0 : Fin 1) j)).trans ?_
  generalize m ((c : Thread nD τ).loc main_arg6) = b
  exact shapeCast_a_1a_apply b shapeCasts_S256_S1x256 0 j

theorem bz_apply (j : Fin 256) : V m c main_v16 (ix2 (0 : Fin 1) j)
    = @HAdd.hAdd EReal EReal EReal instHAdd (m ((c : Thread nD τ).loc main_arg8) (ix1 j)) (m ((c : Thread nD τ).loc main_arg10) (ix1 j)) := by
  refine (congrFun (v16_term m c) (ix2 (0 : Fin 1) j)).trans ?_
  generalize m ((c : Thread nD τ).loc main_arg8) = b
  generalize m ((c : Thread nD τ).loc main_arg10) = b'
  exact shapeCast_a_1a_apply _ shapeCasts_S256_S1x256 0 j

theorem bn_apply (j : Fin 256) : V m c main_v18 (ix2 (0 : Fin 1) j)
    = @HAdd.hAdd EReal EReal EReal instHAdd (m ((c : Thread nD τ).loc main_arg12) (ix1 j)) (m ((c : Thread nD τ).loc main_arg14) (ix1 j)) := by
  refine (congrFun (v18_term m c) (ix2 (0 : Fin 1) j)).trans ?_
  generalize m ((c : Thread nD τ).loc main_arg12) = b
  generalize m ((c : Thread nD τ).loc main_arg14) = b'
  exact shapeCast_a_1a_apply _ shapeCasts_S256_S1x256 0 j

end Entry

end Cert.KernelIdeal.Entry

end
-- ==== Proof.IdealValue.lean ====
/-
  After the launch the result array is the gated cell of the fifteen arguments, row by row.

  Point `t` writes back what the body stores there; that stored block, read at `(p, q)`, is one row of the cell over the
  blocks the body loads (the block-level lemma); each loaded block is its array's rows 1024·t … 1024·t + 1023, or —
  for the weights and bias rows — the whole array the host operations wrote: the transposed weights side by side, a
  transposed weight, a bias as a row, or the sum of two biases as a row (the entry-contents lemmas). Put together,
  point `t`'s block is rows 1024·t … of the whole-array function `G`; the 32 blocks fill the array, so the array is `G`.
-/
import proofs.«177820_j4724464025751_2_alg».proof.Proof.IdealBlocks
import proofs.«177820_j4724464025751_2_alg».proof.Proof.BlockIsCell
import proofs.«177820_j4724464025751_2_alg».proof.Proof.EntryContents
import proofs.«177820_j4724464025751_2_alg».proof.Proof.GruCell

set_option maxRecDepth 16384

noncomputable section

namespace Cert.KernelIdeal.RegionValue

open Cert.KernelIdeal Cert.KernelIdeal.Gen Cert.KernelIdeal.Region Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array on core `c` as one function of the fifteen arrays the program starts with. -/
def result (c : Dev nD) : FVec Ideal S32768x256 .f32 :=
  Cert.GruCell.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- Equal rows, weights and biases give equal cells. -/
theorem cell_congr {x x' h h' : Fin 256 → EReal} {hs hs' : Fin 8 → Fin 256 → EReal}
    {wr wr' wz wz' wn wn' ur ur' uz uz' un un' : Fin 256 → Fin 256 → EReal} {br br' bu bu' bz bz' bn bn' : Fin 256 → EReal}
    (q : Fin 256) (e1 : ∀ k, x k = x' k) (e2 : ∀ k, h k = h' k) (e3 : ∀ n k, hs n k = hs' n k)
    (e4 : ∀ k j, wr k j = wr' k j) (e5 : ∀ k j, wz k j = wz' k j) (e6 : ∀ k j, wn k j = wn' k j)
    (e7 : ∀ k j, ur k j = ur' k j) (e8 : ∀ k j, uz k j = uz' k j) (e9 : ∀ k j, un k j = un' k j)
    (e10 : ∀ j, br j = br' j) (e11 : ∀ j, bu j = bu' j) (e12 : ∀ j, bz j = bz' j) (e13 : ∀ j, bn j = bn' j) :
    Cert.GruCell.cell x h hs wr wz wn ur uz un br bu bz bn q = Cert.GruCell.cell x' h' hs' wr' wz' wn' ur' uz' un' br' bu' bz' bn' q := by
  obtain rfl : x = x' := funext e1
  obtain rfl : h = h' := funext e2
  obtain rfl : hs = hs' := funext fun n => funext (e3 n)
  obtain rfl : wr = wr' := funext fun k => funext (e4 k)
  obtain rfl : wz = wz' := funext fun k => funext (e5 k)
  obtain rfl : wn = wn' := funext fun k => funext (e6 k)
  obtain rfl : ur = ur' := funext fun k => funext (e7 k)
  obtain rfl : uz = uz' := funext fun k => funext (e8 k)
  obtain rfl : un = un' := funext fun k => funext (e9 k)
  obtain rfl : br = br' := funext e10
  obtain rfl : bu = bu' := funext e11
  obtain rfl : bz = bz' := funext e12
  obtain rfl : bn = bn' := funext e13
  rfl

theorem hz : (![0, 0] : Fin 2 → Nat) = fun _ => 0 := funext fun a => by fin_cases a <;> rfl

/-- What point `t` writes back is block `t` of `result`. -/
theorem flushed_eq (c : Dev nD) (t : Fin cfg0.N) :
    (dats m 0 c).flushed 11 t = ((cfg0.win 11).blk t).view.read (Elt Ideal) (result m c) := by
  show (cfg0.win 11).cut (grid0.coords t) ((dats m 0 c).after 11 t) = _
  rw [after0_11]
  unfold out0_11
  rw [View.canon_unit_zero hz]
  funext y
  obtain ⟨p, q, rfl⟩ : ∃ (p : Fin 1024) (q : Fin 256), y = ix2 p q := ⟨y 0, y 1, eq_ix2 y⟩
  show stored (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
    = result m c (((cfg0.win 11).blk t).view.emb (ix2 p q : S1024x256.Idx))
  rw [out_emb t p q]
  refine (Cert.KernelIdeal.BlockValue.stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  show _ = Cert.GruCell.cell (fun k => m ((c : Thread nD τ).loc main_arg0) (ix2 (row t p) k)) (fun k => m ((c : Thread nD τ).loc main_arg1) (ix2 (row t p) k))
    (fun n k => m ((c : Thread nD τ).loc main_arg2) (ix3 n (row t p) k))
    (fun k j => m ((c : Thread nD τ).loc main_arg3) (ix2 j k)) (fun k j => m ((c : Thread nD τ).loc main_arg7) (ix2 j k)) (fun k j => m ((c : Thread nD τ).loc main_arg11) (ix2 j k))
    (fun k j => m ((c : Thread nD τ).loc main_arg5) (ix2 j k)) (fun k j => m ((c : Thread nD τ).loc main_arg9) (ix2 j k)) (fun k j => m ((c : Thread nD τ).loc main_arg13) (ix2 j k))
    (fun j => m ((c : Thread nD τ).loc main_arg4) (ix1 j)) (fun j => m ((c : Thread nD τ).loc main_arg6) (ix1 j))
    (fun j => @HAdd.hAdd EReal EReal EReal instHAdd (m ((c : Thread nD τ).loc main_arg8) (ix1 j)) (m ((c : Thread nD τ).loc main_arg10) (ix1 j))) (fun j => @HAdd.hAdd EReal EReal EReal instHAdd (m ((c : Thread nD τ).loc main_arg12) (ix1 j)) (m ((c : Thread nD τ).loc main_arg14) (ix1 j))) q
  exact cell_congr q (fun k => blk0_apply m c t p k) (fun k => blk1_apply m c t p k) (fun n k => blk2_apply m c t n p k)
    (fun k j => (blk3_apply m c t k (⟨j.val, by omega⟩ : Fin 768)).trans (Cert.KernelIdeal.Entry.fused_band0 m c k j))
    (fun k j => (blk3_apply m c t k (⟨256 + j.val, by omega⟩ : Fin 768)).trans (Cert.KernelIdeal.Entry.fused_band1 m c k j))
    (fun k j => (blk3_apply m c t k (⟨512 + j.val, by omega⟩ : Fin 768)).trans (Cert.KernelIdeal.Entry.fused_band2 m c k j))
    (fun k j => (blk4_apply m c t k j).trans (Cert.KernelIdeal.Entry.whr_apply m c k j))
    (fun k j => (blk5_apply m c t k j).trans (Cert.KernelIdeal.Entry.whz_apply m c k j))
    (fun k j => (blk6_apply m c t k j).trans (Cert.KernelIdeal.Entry.whn_apply m c k j))
    (fun j => (blk7_apply m c t (0 : Fin 1) j).trans (Cert.KernelIdeal.Entry.bir_apply m c j))
    (fun j => (blk8_apply m c t (0 : Fin 1) j).trans (Cert.KernelIdeal.Entry.bhr_apply m c j))
    (fun j => (blk9_apply m c t (0 : Fin 1) j).trans (Cert.KernelIdeal.Entry.bz_apply m c j))
    (fun j => (blk10_apply m c t (0 : Fin 1) j).trans (Cert.KernelIdeal.Entry.bn_apply m c j))

/-- The result array after the launch. -/
theorem final (c : Dev nD) : (dats m 0 c).arrAt 11 cfg0.N = result m c :=
  (dats m 0 c).arrAt_eq_of_cover 11 (result m c) (fun t _ => flushed_eq m c t) (fun i => out_cover i)

/-- Every weakly fair execution of the program ends with the result array at `result` and the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).1 11).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.RegionValue

end
-- ==== Proof.ReferenceIsCell.lean ====
/-
  The reference program's result array, read one element at a time, is the gated recurrent cell of `GruCell.lean`.

  At row `r` and column `j` the program computes, in its own order: the input's projection through each transposed
  weight plus that weight's bias; for every neighbour `n` the neighbour row's projection plus its bias, the two sums
  added, and `1 / (1 + exp (-t))` of the total `t`, which is `Ideal.logistic t` by definition; zero plus the sum over the
  eight neighbours of gate times neighbour entry; the update gate from `((xz + biz) + hz) + bhz` and the candidate from
  `((xn + bin) + sn) + bhn`, which the cell groups as `(xz + hz) + (biz + bhz)` and `(xn + sn) + (bin + bhn)`; and the
  blend `(1 - z) * c + z * h`. The only algebra between the two sides is associativity and commutativity of addition
  on the extended reals; no entry needs to be finite.

  Each lemma reads one stage of the program at an index built from literal coordinates, so that the next lemma can
  rewrite with it.
-/
import proofs.«177820_j4724464025751_2_alg».proof.Proof.Gen.ReferenceIdeal.Read
import proofs.«177820_j4724464025751_2_alg».proof.Proof.GruCell
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

variable (x0 x1 : FVec Ideal S32768x256 .f32) (x2 : FVec Ideal S8x32768x256 .f32)
  (x3 : FVec Ideal S256x256 .f32) (x4 : FVec Ideal S256 .f32) (x5 : FVec Ideal S256x256 .f32) (x6 : FVec Ideal S256 .f32)
  (x7 : FVec Ideal S256x256 .f32) (x8 : FVec Ideal S256 .f32) (x9 : FVec Ideal S256x256 .f32) (x10 : FVec Ideal S256 .f32)
  (x11 : FVec Ideal S256x256 .f32) (x12 : FVec Ideal S256 .f32) (x13 : FVec Ideal S256x256 .f32) (x14 : FVec Ideal S256 .f32)

/-! ## Scalar facts -/

/-- `1 / (1 + exp (-t))` with both ones given as the f32 word of one is the logistic function. -/
theorem logistic_spelt (t : EReal) :
    Ideal.div (Ideal.ofBits .f32 0x3F800000#32) (Ideal.ofBits .f32 0x3F800000#32 + Ideal.exp (-t)) = Ideal.logistic t := by
  rw [Ideal.ofBits_one_f32]
  rfl

/-- Two terms and two biases added one after the other regroup as terms plus biases. -/
theorem regroup (a b c d : EReal) : ((a + b) + c) + d = (a + c) + (b + d) := by
  rw [add_assoc (a + b) c d, add_add_add_comm]

/-! ## The biases, broadcast along the rows -/

/-- The reset gate's input bias at column `j`. -/
theorem v3_at (r : Fin 32768) (j : Fin 256) : val_main_v3 (F := Ideal) x4 (ix2 r j) = x4 (ix1 j) := by
  rw [val_main_v3_apply, val_main_v2_apply]
  exact congrArg x4 (funext fun a => Fin.ext (by match a with | ⟨0, _⟩ => rfl))

/-- The update gate's input bias at column `j`. -/
theorem v21_at (r : Fin 32768) (j : Fin 256) : val_main_v21 (F := Ideal) x8 (ix2 r j) = x8 (ix1 j) := by
  rw [val_main_v21_apply, val_main_v20_apply]
  exact congrArg x8 (funext fun a => Fin.ext (by match a with | ⟨0, _⟩ => rfl))

/-- The update gate's state bias at column `j`. -/
theorem v27_at (r : Fin 32768) (j : Fin 256) : val_main_v27 (F := Ideal) x10 (ix2 r j) = x10 (ix1 j) := by
  rw [val_main_v27_apply, val_main_v26_apply]
  exact congrArg x10 (funext fun a => Fin.ext (by match a with | ⟨0, _⟩ => rfl))

/-- The candidate's input bias at column `j`. -/
theorem v40_at (r : Fin 32768) (j : Fin 256) : val_main_v40 (F := Ideal) x12 (ix2 r j) = x12 (ix1 j) := by
  rw [val_main_v40_apply, val_main_v39_apply]
  exact congrArg x12 (funext fun a => Fin.ext (by match a with | ⟨0, _⟩ => rfl))

/-- The candidate's state bias at column `j`. -/
theorem v46_at (r : Fin 32768) (j : Fin 256) : val_main_v46 (F := Ideal) x14 (ix2 r j) = x14 (ix1 j) := by
  rw [val_main_v46_apply, val_main_v45_apply]
  exact congrArg x14 (funext fun a => Fin.ext (by match a with | ⟨0, _⟩ => rfl))

/-- The reset gate's neighbour bias at column `j`, for every neighbour and row. -/
theorem v7_at (n : Fin 8) (r : Fin 32768) (j : Fin 256) : val_main_v7 (F := Ideal) x6 (ix3 n r j) = x6 (ix1 j) := by
  rw [val_main_v7_apply, val_main_v6_apply]
  exact congrArg x6 (funext fun a => Fin.ext (by match a with | ⟨0, _⟩ => rfl))

/-! ## The projections: a row against a weight read transposed -/

/-- The input row against the reset gate's input weight: `∑ k, x (r, k) * Wir (j, k)`. -/
theorem v1_at (r : Fin 32768) (j : Fin 256) :
    val_main_v1 (F := Ideal) x0 x3 (ix2 r j)
      = GruCell.proj (fun k => x0 (ix2 r k)) (fun k q => x3 (ix2 q k)) j := by
  rw [val_main_v1_apply]
  unfold GruCell.proj
  refine Finset.sum_congr rfl fun k _ => ?_
  rw [val_main_v0_apply,
    show lidx_main_v1 (ix2 r j) k = ix2 r k from funext fun a => Fin.ext (by match a with | ⟨0, _⟩ => rfl | ⟨1, _⟩ => rfl),
    show idx_main_v0 (ridx_main_v1 (ix2 r j) k) = ix2 j k from funext fun a => Fin.ext (by match a with | ⟨0, _⟩ => rfl | ⟨1, _⟩ => rfl)]

/-- The input row against the update gate's input weight. -/
theorem v19_at (r : Fin 32768) (j : Fin 256) :
    val_main_v19 (F := Ideal) x0 x7 (ix2 r j)
      = GruCell.proj (fun k => x0 (ix2 r k)) (fun k q => x7 (ix2 q k)) j := by
  rw [val_main_v19_apply]
  unfold GruCell.proj
  refine Finset.sum_congr rfl fun k _ => ?_
  rw [val_main_v18_apply,
    show lidx_main_v19 (ix2 r j) k = ix2 r k from funext fun a => Fin.ext (by match a with | ⟨0, _⟩ => rfl | ⟨1, _⟩ => rfl),
    show idx_main_v18 (ridx_main_v19 (ix2 r j) k) = ix2 j k from funext fun a => Fin.ext (by match a with | ⟨0, _⟩ => rfl | ⟨1, _⟩ => rfl)]

/-- The summed-state row against the update gate's state weight. -/
theorem v24_at (r : Fin 32768) (j : Fin 256) :
    val_main_v24 (F := Ideal) x1 x9 (ix2 r j)
      = GruCell.proj (fun k => x1 (ix2 r k)) (fun k q => x9 (ix2 q k)) j := by
  rw [val_main_v24_apply]
  unfold GruCell.proj
  refine Finset.sum_congr rfl fun k _ => ?_
  rw [val_main_v23_apply,
    show lidx_main_v24 (ix2 r j) k = ix2 r k from funext fun a => Fin.ext (by match a with | ⟨0, _⟩ => rfl | ⟨1, _⟩ => rfl),
    show idx_main_v23 (ridx_main_v24 (ix2 r j) k) = ix2 j k from funext fun a => Fin.ext (by match a with | ⟨0, _⟩ => rfl | ⟨1, _⟩ => rfl)]

/-- The input row against the candidate's input weight. -/
theorem v38_at (r : Fin 32768) (j : Fin 256) :
    val_main_v38 (F := Ideal) x0 x11 (ix2 r j)
      = GruCell.proj (fun k => x0 (ix2 r k)) (fun k q => x11 (ix2 q k)) j := by
  rw [val_main_v38_apply]
  unfold GruCell.proj
  refine Finset.sum_congr rfl fun k _ => ?_
  rw [val_main_v37_apply,
    show lidx_main_v38 (ix2 r j) k = ix2 r k from funext fun a => Fin.ext (by match a with | ⟨0, _⟩ => rfl | ⟨1, _⟩ => rfl),
    show idx_main_v37 (ridx_main_v38 (ix2 r j) k) = ix2 j k from funext fun a => Fin.ext (by match a with | ⟨0, _⟩ => rfl | ⟨1, _⟩ => rfl)]

/-- Neighbour `n`'s row against the reset gate's state weight, contracted on the weight's second axis:
    `∑ k, hs (n, r, k) * Whr (j, k)`. -/
theorem v5_at (n : Fin 8) (r : Fin 32768) (j : Fin 256) :
    val_main_v5 (F := Ideal) x2 x5 (ix3 n r j)
      = GruCell.proj (fun k => x2 (ix3 n r k)) (fun k q => x5 (ix2 q k)) j := by
  rw [val_main_v5_apply]
  unfold GruCell.proj
  refine Finset.sum_congr rfl fun k _ => ?_
  rw [show lidx_main_v5 (ix3 n r j) k = ix3 n r k from funext fun a => Fin.ext (by match a with | ⟨0, _⟩ => rfl | ⟨1, _⟩ => rfl | ⟨2, _⟩ => rfl),
    show ridx_main_v5 (ix3 n r j) k = ix2 j k from funext fun a => Fin.ext (by match a with | ⟨0, _⟩ => rfl | ⟨1, _⟩ => rfl)]

/-! ## The reset gates and the gated sum -/

/-- The argument of neighbour `n`'s reset gate: the input's projection plus bias, plus the neighbour's. -/
theorem v11_at (n : Fin 8) (r : Fin 32768) (j : Fin 256) :
    val_main_v11 (F := Ideal) x0 x2 x3 x4 x5 x6 (ix3 n r j)
      = (GruCell.proj (fun k => x0 (ix2 r k)) (fun k q => x3 (ix2 q k)) j + x4 (ix1 j))
        + (GruCell.proj (fun k => x2 (ix3 n r k)) (fun k q => x5 (ix2 q k)) j + x6 (ix1 j)) := by
  rw [val_main_v11_apply, val_main_v10_apply, val_main_v9_apply, val_main_v8_apply,
    show idx_main_v9 (idx_main_v10 (ix3 n r j)) = ix2 r j from funext fun a => Fin.ext (by match a with | ⟨0, _⟩ => rfl | ⟨1, _⟩ => rfl),
    val_main_v4_apply, v1_at, v3_at, v5_at, v7_at]
  rfl

/-- Neighbour `n`'s reset gate is the logistic function of that argument. -/
theorem v17_at (n : Fin 8) (r : Fin 32768) (j : Fin 256) :
    val_main_v17 (F := Ideal) x0 x2 x3 x4 x5 x6 (ix3 n r j)
      = Ideal.logistic (val_main_v11 (F := Ideal) x0 x2 x3 x4 x5 x6 (ix3 n r j)) := by
  rw [val_main_v17_apply, val_main_v16_apply, val_main_cst_0_apply, val_main_v15_apply, val_main_v14_apply,
    val_main_cst_apply, val_main_v13_apply, val_main_v12_apply]
  exact logistic_spelt _

/-- The gated sum at row `r`, column `j`: zero plus the eight gate-weighted neighbour entries. -/
theorem v36_at (r : Fin 32768) (j : Fin 256) :
    val_main_v36 (F := Ideal) x0 x2 x3 x4 x5 x6 (ix2 r j)
      = GruCell.gated (fun k => x0 (ix2 r k)) (fun n k => x2 (ix3 n r k)) (fun k q => x3 (ix2 q k))
          (fun k q => x5 (ix2 q k)) (fun q => x4 (ix1 q)) (fun q => x6 (ix1 q)) j := by
  rw [val_main_v36_apply, val_main_cst_3_apply, Ideal.ofBits_def, Ideal.ofBits_zero_f32, zero_add]
  unfold GruCell.gated
  refine Finset.sum_congr rfl fun n _ => ?_
  rw [show idx_main_v36 (ix2 r j) n = ix3 n r j from funext fun a => Fin.ext (by match a with | ⟨0, _⟩ => rfl | ⟨1, _⟩ => rfl | ⟨2, _⟩ => rfl),
    val_main_v35_apply, v17_at, v11_at]
  rfl

/-! ## The update gate -/

/-- The update gate's argument, in the program's order of additions. -/
theorem v28_at (r : Fin 32768) (j : Fin 256) :
    val_main_v28 (F := Ideal) x0 x1 x7 x8 x9 x10 (ix2 r j)
      = ((GruCell.proj (fun k => x0 (ix2 r k)) (fun k q => x7 (ix2 q k)) j + x8 (ix1 j))
          + GruCell.proj (fun k => x1 (ix2 r k)) (fun k q => x9 (ix2 q k)) j) + x10 (ix1 j) := by
  rw [val_main_v28_apply, val_main_v25_apply, val_main_v22_apply, v19_at, v21_at, v24_at, v27_at]
  rfl

/-- The update gate. -/
theorem v34_at (r : Fin 32768) (j : Fin 256) :
    val_main_v34 (F := Ideal) x0 x1 x7 x8 x9 x10 (ix2 r j)
      = GruCell.update (fun k => x0 (ix2 r k)) (fun k => x1 (ix2 r k)) (fun k q => x7 (ix2 q k))
          (fun k q => x9 (ix2 q k)) (fun q => x8 (ix1 q) + x10 (ix1 q)) j := by
  rw [val_main_v34_apply, val_main_v33_apply, val_main_cst_2_apply, val_main_v32_apply, val_main_v31_apply,
    val_main_cst_1_apply, val_main_v30_apply, val_main_v29_apply]
  refine (logistic_spelt _).trans ?_
  rw [v28_at, regroup]
  rfl

/-! ## The candidate -/

/-- The gated sum's row against the candidate's state weight. -/
theorem v43_at (r : Fin 32768) (j : Fin 256) :
    val_main_v43 (F := Ideal) x0 x2 x3 x4 x5 x6 x13 (ix2 r j)
      = GruCell.proj (GruCell.gated (fun k => x0 (ix2 r k)) (fun n k => x2 (ix3 n r k)) (fun k q => x3 (ix2 q k))
          (fun k q => x5 (ix2 q k)) (fun q => x4 (ix1 q)) (fun q => x6 (ix1 q))) (fun k q => x13 (ix2 q k)) j := by
  rw [val_main_v43_apply]
  unfold GruCell.proj
  refine Finset.sum_congr rfl fun k _ => ?_
  rw [val_main_v42_apply,
    show lidx_main_v43 (ix2 r j) k = ix2 r k from funext fun a => Fin.ext (by match a with | ⟨0, _⟩ => rfl | ⟨1, _⟩ => rfl),
    show idx_main_v42 (ridx_main_v43 (ix2 r j) k) = ix2 j k from funext fun a => Fin.ext (by match a with | ⟨0, _⟩ => rfl | ⟨1, _⟩ => rfl),
    v36_at]

/-- The candidate state. -/
theorem v48_at (r : Fin 32768) (j : Fin 256) :
    val_main_v48 (F := Ideal) x0 x2 x3 x4 x5 x6 x11 x12 x13 x14 (ix2 r j)
      = GruCell.candidate (fun k => x0 (ix2 r k))
          (GruCell.gated (fun k => x0 (ix2 r k)) (fun n k => x2 (ix3 n r k)) (fun k q => x3 (ix2 q k))
            (fun k q => x5 (ix2 q k)) (fun q => x4 (ix1 q)) (fun q => x6 (ix1 q)))
          (fun k q => x11 (ix2 q k)) (fun k q => x13 (ix2 q k)) (fun q => x12 (ix1 q) + x14 (ix1 q)) j := by
  rw [val_main_v48_apply, val_main_v47_apply, val_main_v44_apply, val_main_v41_apply, v38_at, v40_at, v43_at, v46_at]
  unfold GruCell.candidate
  refine congrArg Ideal.tanh ?_
  exact regroup _ _ _ _

/-! ## The blend, and the whole array -/

/-- The result at row `r`, column `j` is the cell's. -/
theorem result_at (r : Fin 32768) (j : Fin 256) :
    val_main_v53 (F := Ideal) x0 x1 x2 x3 x4 x5 x6 x7 x8 x9 x10 x11 x12 x13 x14 (ix2 r j)
      = GruCell.cell (fun k => x0 (ix2 r k)) (fun k => x1 (ix2 r k)) (fun n k => x2 (ix3 n r k))
          (fun k q => x3 (ix2 q k)) (fun k q => x7 (ix2 q k)) (fun k q => x11 (ix2 q k))
          (fun k q => x5 (ix2 q k)) (fun k q => x9 (ix2 q k)) (fun k q => x13 (ix2 q k))
          (fun q => x4 (ix1 q)) (fun q => x6 (ix1 q)) (fun q => x8 (ix1 q) + x10 (ix1 q))
          (fun q => x12 (ix1 q) + x14 (ix1 q)) j := by
  rw [val_main_v53_apply, val_main_v51_apply, val_main_v52_apply, val_main_v50_apply, val_main_v49_apply,
    val_main_cst_4_apply, v34_at, v48_at, Ideal.ofBits_def, Ideal.ofBits_one_f32]
  rfl

/-- The reference program's result is the cell applied to its fifteen arguments: every index is a row and a column. -/
theorem result_eq :
    val_main_v53 (F := Ideal) x0 x1 x2 x3 x4 x5 x6 x7 x8 x9 x10 x11 x12 x13 x14
      = GruCell.G x0 x1 x2 x3 x4 x5 x6 x7 x8 x9 x10 x11 x12 x13 x14 := by
  funext i
  obtain ⟨r, j, rfl⟩ : ∃ (r : Fin 32768) (j : Fin 256), i = ix2 r j := ⟨i 0, i 1, eq_ix2 i⟩
  exact result_at x0 x1 x2 x3 x4 x5 x6 x7 x8 x9 x10 x11 x12 x13 x14 r j

end Cert.ReferenceIdeal.RefValue

end
-- ==== Proof.lean ====
/-
  The kernel computes one step of a gated recurrent cell over eight neighbours, 1024 rows per launch point, and the
  reference computes the same cell on whole arrays; on the extended reals they are one function.

  At row `r` and column `q`: reset gates `logistic ((x·Wirᵀ + bir) + (hsₙ·Whrᵀ + bhr))`, one per neighbour; their gated
  sum `s = ∑ₙ gateₙ * hsₙ`; the update gate `z = logistic (x·Wizᵀ + h·Whzᵀ + biz + bhz)`; the candidate
  `c = tanh (x·Winᵀ + s·Whnᵀ + bin + bhn)`; the result `(1 - z) * c + z * h`. The kernel multiplies the input by the
  three transposed input weights joined side by side and cuts the product into three bands, adds the two update-gate
  biases (and the two candidate biases) before the launch, accumulates the gated sum one neighbour at a time from zero,
  and narrows operands before each product; the reference keeps every array whole, spells the logistic function as
  `1 / (1 + exp (-t))`, and adds the biases one at a time. On the extended reals narrowing is the identity, a product
  into a zero accumulator is the plain sum of products, and the only algebra between the two sides is associativity and
  commutativity of addition — so no entry needs to be finite and the precondition is not opened.

  `GruCell` states the cell; `ReferenceIsCell` reads the reference's result as it; `BlockIsCell` reads what the
  kernel's body stores as one row of it over the loaded blocks; `EntryContents` reads the arrays the host operations
  hand the launch; `IdealFrame` / `BitsFrame` run the launch (termination, no fault, arguments unchanged, the result
  block by block); `IdealBlocks` and `IdealValue` put the blocks together. The two programs print the same text, so
  nothing is owed for the idealization itself.
-/
import proofs.«177820_j4724464025751_2_alg».proof.Defs
import proofs.«177820_j4724464025751_2_alg».proof.Proof.Gen.Kernel
import proofs.«177820_j4724464025751_2_alg».proof.Proof.Gen.KernelIdeal
import proofs.«177820_j4724464025751_2_alg».proof.Proof.Gen.ReferenceIdeal
import proofs.«177820_j4724464025751_2_alg».proof.Proof.Gen.Pre_finite_inputs
import proofs.«177820_j4724464025751_2_alg».proof.Proof.Gen.ReferenceIdeal.Run
import proofs.«177820_j4724464025751_2_alg».proof.Proof.Gen.ReferenceIdeal.Read
import proofs.«177820_j4724464025751_2_alg».proof.Proof.BitsFrame
import proofs.«177820_j4724464025751_2_alg».proof.Proof.IdealFrame
import proofs.«177820_j4724464025751_2_alg».proof.Proof.IdealValue
import proofs.«177820_j4724464025751_2_alg».proof.Proof.ReferenceIsCell
import Idealize.ShloMosaic.Adequacy
import Idealize.ShloMosaic.Init

noncomputable section

namespace Cert.Proof

open Idealize.ShloMosaic Idealize.SL.Sem

/-- The word-level kernel runs to its end, faults nowhere and leaves its arguments unchanged. -/
theorem frame_kernel : Cert.frame_Kernel := fun m ρ _ => Cert.Kernel.Region.frame m ρ

/-- So does the kernel read on the extended reals. -/
theorem frame_kernelIdeal : Cert.frame_KernelIdeal := fun m ρ _ => Cert.KernelIdeal.Region.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the fifteen arguments both programs end with the result array at the cell of those
    arguments. -/
theorem algebraic : Cert.algebraic_KernelIdeal_ReferenceIdeal := by
  intro m ρ m' ρ' _ hagree
  refine ⟨fun c => Cert.KernelIdeal.RegionValue.result m c, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v53_eq, Cert.ReferenceIdeal.RefValue.result_eq,
    h0, h1, h2, h3, h4, h5, h6, h7, h8, h9, h10, h11, h12, h13, h14]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
